-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v64)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg5 : FVec F S16 .f32) (main_v13 : IVec S_ 1) (main_v16 : IVec S128x16 1) : IVec S_ 1 :=
  let main_c_5 : IVec S_ 1 := constantI S_ 1 1#1
  let main_v17 : IVec S_ 1 := (fun x v => Host.reduce IntOp.andi x v reducesTo_S128x16_S_d0_1 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  main_v23

def fn {F : FTy → Type} [FloatOps F] (main_arg0 : FVec F S100000x256 .f32) (main_arg1 : IVec S2x1600000 32) (main_arg2 : FVec F S256x128 .f32) (main_arg3 : FVec F S128 .f32) (main_arg4 : FVec F S128x16 .f32) (main_arg5 : FVec F S16 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x16 .f32 := Host.absf main_arg4
  let main_cst_4 : FVec F S_ .f32 := constant S_ .f32 0x7F800000#32
  let main_v15 : FVec F S128x16 .f32 := broadcastInDim S128x16 ![] bcast_S_S128x16 main_cst_4
  let main_v16 : IVec S128x16 1 := cmpf .olt main_v14 main_v15
  fn_part1 (F := F) main_arg5 main_v13 main_v16
-- ==== Kernel.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1x128 : Shape := ⟨2, ![1, 128]⟩
abbrev S1x16 : Shape := ⟨2, ![1, 16]⟩
abbrev S100000x128 : Shape := ⟨2, ![100000, 128]⟩
abbrev S4000x256 : Shape := ⟨2, ![4000, 256]⟩
abbrev S4000x128 : Shape := ⟨2, ![4000, 128]⟩
abbrev S1700000x128 : Shape := ⟨2, ![1700000, 128]⟩
abbrev S100000x16 : Shape := ⟨2, ![100000, 16]⟩
abbrev S4000x16 : Shape := ⟨2, ![4000, 16]⟩
abbrev S1700000x16 : Shape := ⟨2, ![1700000, 16]⟩
abbrev S4000 : Shape := ⟨1, ![4000]⟩
abbrev S4000x1 : Shape := ⟨2, ![4000, 1]⟩

abbrev nBuf : Space → Nat
  | .hbm => 85
  | .vmem => 16
  | .smem => 0
  | _ => 0

abbrev bufTy : (tb : Table) → Fin (tcTables nBuf tb) → BufTy
  | .hbm, ⟨0, _⟩ => ⟨S100000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x16, .f32⟩
  | .hbm, ⟨5, _⟩ => ⟨S16, .f32⟩
  | .hbm, ⟨6, _⟩ => ⟨S1x1600000, .i32⟩
  | .hbm, ⟨7, _⟩ => ⟨S1600000, .i32⟩
  | .hbm, ⟨8, _⟩ => ⟨S1x1600000, .i32⟩
  | .hbm, ⟨9, _⟩ => ⟨S1600000, .i32⟩
  | .hbm, ⟨10, _⟩ => ⟨S100000, .i32⟩
  | .hbm, ⟨11, _⟩ => ⟨S1700000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S100000, .f32⟩
  | .hbm, ⟨25, _⟩ => ⟨S100000, .f32⟩
  | .hbm, ⟨26, _⟩ => ⟨S_, .i32⟩
  | .hbm, ⟨27, _⟩ => ⟨S1700000, .i32⟩
  | .hbm, ⟨28, _⟩ => ⟨S1700000, .i1⟩
  | .hbm, ⟨29, _⟩ => ⟨S_, .i32⟩
  | .hbm, ⟨30, _⟩ => ⟨S1700000, .i32⟩
  | .hbm, ⟨31, _⟩ => ⟨S1700000, .i32⟩
  | .hbm, ⟨32, _⟩ => ⟨S1700000, .i32⟩
  | .hbm, ⟨33, _⟩ => ⟨S1700000x1, .i32⟩
  | .hbm, ⟨34, _⟩ => ⟨S1700000, .f32⟩
  | .hbm, ⟨35, _⟩ => ⟨S_, .i32⟩
  | .hbm, ⟨36, _⟩ => ⟨S1700000, .i32⟩
  | .hbm, ⟨37, _⟩ => ⟨S1700000, .i1⟩
  | .hbm, ⟨38, _⟩ => ⟨S_, .i32⟩
  | .hbm, ⟨39, _⟩ => ⟨S1700000, .i32⟩
  | .hbm, ⟨40, _⟩ => ⟨S1700000, .i32⟩
  | .hbm, ⟨41, _⟩ => ⟨S1700000, .i32⟩
  | .hbm, ⟨42, _⟩ => ⟨S1700000x1, .i32⟩
  | .hbm, ⟨43, _⟩ => ⟨S1700000, .f32⟩
  | .hbm, ⟨44, _⟩ => ⟨S1700000, .f32⟩
  | .hbm, ⟨45, _⟩ => ⟨S256x128, .bf16⟩
  | .hbm, ⟨46, _⟩ => ⟨S128x16, .bf16⟩
  | .hbm, ⟨47, _⟩ => ⟨S1x128, .f32⟩
  | .hbm, ⟨48, _⟩ => ⟨S1x16, .f32⟩
  | .hbm, ⟨49, _⟩ => ⟨S100000x128, .bf16⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x128, .bf16⟩
  | .hbm, ⟨59, _⟩ => ⟨S1700000x128, .f32⟩
  | .hbm, ⟨60, _⟩ => ⟨S1700000x1, .f32⟩
  | .hbm, ⟨61, _⟩ => ⟨S1700000x128, .f32⟩
  | .hbm, ⟨62, _⟩ => ⟨S1700000x128, .f32⟩
  | .hbm, ⟨63, _⟩ => ⟨S_, .f32⟩
  | .hbm, ⟨64, _⟩ => ⟨S100000x128, .f32⟩
  | .hbm, ⟨65, _⟩ => ⟨S1700000x1, .i32⟩
  | .hbm, ⟨66, _⟩ => ⟨S100000x128, .f32⟩
  | .hbm, ⟨67, _⟩ => ⟨S100000x16, .f32⟩
  | .hbm, ⟨68, _⟩ => ⟨S_, .i32⟩
  | .hbm, ⟨69, _⟩ => ⟨S1700000, .i32⟩
  | .hbm, ⟨70, _⟩ => ⟨S1700000, .i1⟩
  | .hbm, ⟨71, _⟩ => ⟨S_, .i32⟩
  | .hbm, ⟨72, _⟩ => ⟨S1700000, .i32⟩
  | .hbm, ⟨73, _⟩ => ⟨S1700000, .i32⟩
  | .hbm, ⟨74, _⟩ => ⟨S1700000, .i32⟩
  | .hbm, ⟨75, _⟩ => ⟨S1700000x1, .i32⟩
  | .hbm, ⟨76, _⟩ => ⟨S1700000x16, .f32⟩
  | .hbm, ⟨77, _⟩ => ⟨S1700000x1, .f32⟩
  | .hbm, ⟨78, _⟩ => ⟨S1700000x16, .f32⟩
  | .hbm, ⟨79, _⟩ => ⟨S1700000x16, .f32⟩
  | .hbm, ⟨80, _⟩ => ⟨S_, .f32⟩
  | .hbm, ⟨81, _⟩ => ⟨S100000x16, .f32⟩
  | .hbm, ⟨82, _⟩ => ⟨S1700000x1, .i32⟩
  | .hbm, ⟨83, _⟩ => ⟨S100000x16, .f32⟩
  | .hbm, ⟨84, _⟩ => ⟨S100000x16, .f32⟩
  | .local _ .vmem, ⟨0, _⟩ => ⟨S4000x256, .f32⟩
  | .local _ .vmem, ⟨1, _⟩ => ⟨S4000x256, .f32⟩
  | .local _ .vmem, ⟨2, _⟩ => ⟨S256x128, .bf16⟩
  | .local _ .vmem, ⟨3, _⟩ => ⟨S4000x128, .bf16⟩
  | .local _ .vmem, ⟨4, _⟩ => ⟨S4000x128, .bf16⟩
  | .local _ .vmem, ⟨5, _⟩ => ⟨S4000x128, .f32⟩
  | .local _ .vmem, ⟨6, _⟩ => ⟨S4000x128, .f32⟩
  | .local _ .vmem, ⟨7, _⟩ => ⟨S1x128, .f32⟩
  | .local _ .vmem, ⟨8, _⟩ => ⟨S128x16, .bf16⟩
  | .local _ .vmem, ⟨9, _⟩ => ⟨S4000x16, .f32⟩
  | .local _ .vmem, ⟨10, _⟩ => ⟨S4000x16, .f32⟩
  | .local _ .vmem, ⟨11, _⟩ => ⟨S4000x16, .f32⟩
  | .local _ .vmem, ⟨12, _⟩ => ⟨S4000x16, .f32⟩
  | .local _ .vmem, ⟨13, _⟩ => ⟨S1x16, .f32⟩
  | .local _ .vmem, ⟨14, _⟩ => ⟨S4000x16, .f32⟩
  | .local _ .vmem, ⟨15, _⟩ => ⟨S4000x16, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_6 : Ref sig .tc := ⟨.hbm, 50, rfl⟩
abbrev main_v36 : Ref sig .tc := ⟨.hbm, 51, rfl⟩
abbrev main_v37 : Ref sig .tc := ⟨.hbm, 52, rfl⟩
abbrev main_c_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_8 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_c_9 : Ref sig .tc := ⟨.hbm, 68, rfl⟩
abbrev main_v51 : Ref sig .tc := ⟨.hbm, 69, rfl⟩
abbrev main_v52 : Ref sig .tc := ⟨.hbm, 70, rfl⟩
abbrev main_c_10 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_cst_11 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x16 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x16 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bitsLt_bf16_f32 : FTy.bits .bf16 < FTy.bits .f32
  shapeCasts_S128_S1x128 : S128.ShapeCasts S1x128
  shapeCasts_S16_S1x16 : S16.ShapeCasts S1x16
  inb_S4000x256_S4000x256_0_0 : ∀ a, (![0, 0] : Fin 2 → Nat) a + S4000x256.size a ≤ S4000x256.size a
  h_S4000x256 : 0 < S4000x256.numel
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S4000x128_S4000x128_0_0 : ∀ a, (![0, 0] : Fin 2 → Nat) a + S4000x128.size a ≤ S4000x128.size a
  h_S4000x128 : 0 < S4000x128.numel
  packedbf16_S4000x128_S4000x128_0_0 : (Rect.unit (s := S4000x128) ![0, 0] S4000x128.size inb_S4000x128_S4000x128_0_0).PackedRows (EltTy.packing .bf16)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  shapeCasts_S4000x128_S4000x128 : S4000x128.ShapeCasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  inb_S128x16_S128x16_0_0 : ∀ a, (![0, 0] : Fin 2 → Nat) a + S128x16.size a ≤ S128x16.size a
  h_S128x16 : 0 < S128x16.numel
  shapeCasts_S128x16_S128x16 : S128x16.ShapeCasts S128x16
  inb_S4000x16_S4000x16_0_0 : ∀ a, (![0, 0] : Fin 2 → Nat) a + S4000x16.size a ≤ S4000x16.size a
  h_S4000x16 : 0 < S4000x16.numel
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  reduces_S4000x16_S4000 : S4000x16.Reduces [1] S4000
  shapeCasts_S4000_S4000x1 : S4000.ShapeCasts S4000x1
  broadcasts_S4000x1_S4000x16 : S4000x1.Broadcasts S4000x16
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S4000x256_S256x128_S4000x128_1_0_0_1_n_n_wf : DotDims.WF S4000x256 S256x128 S4000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S4000x128_S128x16_S4000x16_1_0_0_1_n_n_wf : DotDims.WF S4000x128 S128x16 S4000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S100000x256.size a
  hwx0_0 : ∀ i : grid0.Coords, EltTy.bits .f32 = 32 ∨ (Rect.block (s := S100000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .bf16 = 32 ∨ (Rect.block (s := S256x128) S256x128.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x128.size a ≤ S100000x128.size a
  hwx0_2 : ∀ i : grid0.Coords, EltTy.bits .bf16 = 32 ∨ (Rect.block (s := S100000x128) S4000x128.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x16.size a ≤ S128x16.size a
  hwx1_2 : ∀ i : grid1.Coords, EltTy.bits .bf16 = 32 ∨ (Rect.block (s := S128x16) S128x16.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x16.size a ≤ S100000x16.size a
  hwx1_3 : ∀ i : grid1.Coords, EltTy.bits .f32 = 32 ∨ (Rect.block (s := S100000x16) S4000x16.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x16.size a ≤ S100000x16.size a
  hwx2_0 : ∀ i : grid2.Coords, EltTy.bits .f32 = 32 ∨ (Rect.block (s := S100000x16) S4000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x16.size a ≤ S100000x16.size a
  hwx2_2 : ∀ i : grid2.Coords, EltTy.bits .f32 = 32 ∨ (Rect.block (s := S100000x16) S4000x16.size (cc2_transform_2 i) (hinb2_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S4000x256_S256x128_S4000x128_1_0_0_1_n_n : DotDims S4000x256 S256x128 S4000x128 where
  lhsContracting := [1]
  rhsContracting := [0]
  lhsNonContracting := [0]
  rhsNonContracting := [1]
  lhsBatch := []
  rhsBatch := []
  wf := dot_S4000x256_S256x128_S4000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S4000x128_S128x16_S4000x16_1_0_0_1_n_n : DotDims S4000x128 S128x16 S4000x16 where
  lhsContracting := [1]
  rhsContracting := [0]
  lhsNonContracting := [0]
  rhsNonContracting := [1]
  lhsBatch := []
  rhsBatch := []
  wf := dot_S4000x128_S128x16_S4000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

abbrev win0_0 : Pipeline.Window sig grid0 :=
  Pipeline.Window.ofSpec (Memref.whole main_arg0) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v31) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v35) S4000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v32) S128x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v50) S4000x16.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v63) S4000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v34) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S4000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x256 : Shape := ⟨2, ![100000, 256]⟩
abbrev S2x1600000 : Shape := ⟨2, ![2, 1600000]⟩
abbrev S256x128 : Shape := ⟨2, ![256, 128]⟩
abbrev S128 : Shape := ⟨1, ![128]⟩
abbrev S128x16 : Shape := ⟨2, ![128, 16]⟩
abbrev S16 : Shape := ⟨1, ![16]⟩
abbrev S1x1600000 : Shape := ⟨2, ![1, 1600000]⟩
abbrev S1600000 : Shape := ⟨1, ![1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x16 : Shape := ⟨2, ![100000, 16]⟩
abbrev S1700000x16 : Shape := ⟨2, ![1700000, 16]⟩
abbrev S1x16 : Shape := ⟨2, ![1, 16]⟩
abbrev S100000x1 : Shape := ⟨2, ![100000, 1]⟩

abbrev nBuf : Space → Nat
  | .hbm => 138
  | .vmem => 0
  | .smem => 0
  | _ => 0

abbrev hbmTy0_0 (i : Nat) : BufTy := match i % 128 with
  | 0 => ⟨S100000x256, .f32⟩
  | 1 => ⟨S2x1600000, .i32⟩
  | 2 => ⟨S256x128, .f32⟩
  | 3 => ⟨S128, .f32⟩
  | 4 => ⟨S128x16, .f32⟩
  | 5 => ⟨S16, .f32⟩
  | 6 => ⟨S1x1600000, .i32⟩
  | 7 => ⟨S1600000, .i32⟩
  | 8 => ⟨S1x1600000, .i32⟩
  | 9 => ⟨S1600000, .i32⟩
  | 10 => ⟨S100000, .i32⟩
  | 11 => ⟨S1700000, .i32⟩
  | 12 => ⟨S1700000, .i32⟩
  | 13 => ⟨S_, .f32⟩
  | 14 => ⟨S1700000, .f32⟩
  | 15 => ⟨S_, .f32⟩
  | 16 => ⟨S100000, .f32⟩
  | 17 => ⟨S1700000x1, .i32⟩
  | 18 => ⟨S100000, .f32⟩
  | 19 => ⟨S_, .f32⟩
  | 20 => ⟨S100000, .f32⟩
  | 21 => ⟨S100000, .i1⟩
  | 22 => ⟨S100000, .f32⟩
  | 23 => ⟨S_, .f32⟩
  | 24 => ⟨S100000, .f32⟩
  | 25 => ⟨S100000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S_, .i32⟩
  | 36 => ⟨S1700000, .i32⟩
  | 37 => ⟨S1700000, .i1⟩
  | 38 => ⟨S_, .i32⟩
  | 39 => ⟨S1700000, .i32⟩
  | 40 => ⟨S1700000, .i32⟩
  | 41 => ⟨S1700000, .i32⟩
  | 42 => ⟨S1700000x1, .i32⟩
  | 43 => ⟨S1700000, .f32⟩
  | 44 => ⟨S1700000, .f32⟩
  | 45 => ⟨S100000x128, .f32⟩
  | 46 => ⟨S_, .i32⟩
  | 47 => ⟨S1700000, .i32⟩
  | 48 => ⟨S1700000, .i1⟩
  | 49 => ⟨S_, .i32⟩
  | 50 => ⟨S1700000, .i32⟩
  | 51 => ⟨S1700000, .i32⟩
  | 52 => ⟨S1700000, .i32⟩
  | 53 => ⟨S1700000x1, .i32⟩
  | 54 => ⟨S1700000x128, .f32⟩
  | 55 => ⟨S1700000x1, .f32⟩
  | 56 => ⟨S1700000x128, .f32⟩
  | 57 => ⟨S1700000x128, .f32⟩
  | 58 => ⟨S_, .f32⟩
  | 59 => ⟨S100000x128, .f32⟩
  | 60 => ⟨S1700000x1, .i32⟩
  | 61 => ⟨S100000x128, .f32⟩
  | 62 => ⟨S1x128, .f32⟩
  | 63 => ⟨S100000x128, .f32⟩
  | 64 => ⟨S100000x128, .f32⟩
  | 65 => ⟨S_, .f32⟩
  | 66 => ⟨S100000x128, .f32⟩
  | 67 => ⟨S100000x128, .f32⟩
  | 68 => ⟨S100000, .i32⟩
  | 69 => ⟨S1700000, .i32⟩
  | 70 => ⟨S1700000, .i32⟩
  | 71 => ⟨S_, .f32⟩
  | 72 => ⟨S1700000, .f32⟩
  | 73 => ⟨S_, .f32⟩
  | 74 => ⟨S100000, .f32⟩
  | 75 => ⟨S1700000x1, .i32⟩
  | 76 => ⟨S100000, .f32⟩
  | 77 => ⟨S_, .f32⟩
  | 78 => ⟨S100000, .f32⟩
  | 79 => ⟨S100000, .i1⟩
  | 80 => ⟨S100000, .f32⟩
  | 81 => ⟨S_, .f32⟩
  | 82 => ⟨S100000, .f32⟩
  | 83 => ⟨S100000, .f32⟩
  | 84 => ⟨S_, .i32⟩
  | 85 => ⟨S1700000, .i32⟩
  | 86 => ⟨S1700000, .i1⟩
  | 87 => ⟨S_, .i32⟩
  | 88 => ⟨S1700000, .i32⟩
  | 89 => ⟨S1700000, .i32⟩
  | 90 => ⟨S1700000, .i32⟩
  | 91 => ⟨S1700000x1, .i32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000, .f32⟩
  | 102 => ⟨S1700000, .f32⟩
  | 103 => ⟨S100000x16, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000x16, .f32⟩
  | 113 => ⟨S1700000x1, .f32⟩
  | 114 => ⟨S1700000x16, .f32⟩
  | 115 => ⟨S1700000x16, .f32⟩
  | 116 => ⟨S_, .f32⟩
  | 117 => ⟨S100000x16, .f32⟩
  | 118 => ⟨S1700000x1, .i32⟩
  | 119 => ⟨S100000x16, .f32⟩
  | 120 => ⟨S1x16, .f32⟩
  | 121 => ⟨S100000x16, .f32⟩
  | 122 => ⟨S100000x16, .f32⟩
  | 123 => ⟨S_, .f32⟩
  | 124 => ⟨S100000, .f32⟩
  | 125 => ⟨S_, .f32⟩
  | 126 => ⟨S100000, .f32⟩
  | 127 => ⟨S100000, .f32⟩
  | _ => ⟨S100000x256, .f32⟩

abbrev hbmTy0_1 (i : Nat) : BufTy := match i % 128 with
  | 0 => ⟨S100000x1, .f32⟩
  | 1 => ⟨S100000x16, .f32⟩
  | 2 => ⟨S100000x16, .f32⟩
  | 3 => ⟨S100000x16, .f32⟩
  | 4 => ⟨S_, .f32⟩
  | 5 => ⟨S100000, .f32⟩
  | 6 => ⟨S100000x1, .f32⟩
  | 7 => ⟨S100000x1, .f32⟩
  | 8 => ⟨S100000x16, .f32⟩
  | 9 => ⟨S100000x16, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_c : Ref sig .tc := ⟨.hbm, 26, rfl⟩
abbrev main_v16 : Ref sig .tc := ⟨.hbm, 27, rfl⟩
abbrev main_v17 : Ref sig .tc := ⟨.hbm, 28, rfl⟩
abbrev main_c_3 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_8 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_call1_cst : Ref sig .tc := ⟨.hbm, 65, rfl⟩
abbrev main_call1_v0 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_9 : Ref sig .tc := ⟨.hbm, 71, rfl⟩
abbrev main_v52 : Ref sig .tc := ⟨.hbm, 72, rfl⟩
abbrev main_cst_10 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_c_13 : Ref sig .tc := ⟨.hbm, 84, rfl⟩
abbrev main_v61 : Ref sig .tc := ⟨.hbm, 85, rfl⟩
abbrev main_v62 : Ref sig .tc := ⟨.hbm, 86, rfl⟩
abbrev main_c_14 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_c_15 : Ref sig .tc := ⟨.hbm, 93, rfl⟩
abbrev main_v68 : Ref sig .tc := ⟨.hbm, 94, rfl⟩
abbrev main_v69 : Ref sig .tc := ⟨.hbm, 95, rfl⟩
abbrev main_c_16 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_cst_19 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call3_cst : Ref sig .tc := ⟨.hbm, 123, rfl⟩
abbrev main_call3_v0 : Ref sig .tc := ⟨.hbm, 124, rfl⟩
abbrev main_call3_cst_0 : Ref sig .tc := ⟨.hbm, 125, rfl⟩
abbrev main_call3_v1 : Ref sig .tc := ⟨.hbm, 126, rfl⟩
abbrev main_call3_v2 : Ref sig .tc := ⟨.hbm, 127, rfl⟩
abbrev main_call3_v3 : Ref sig .tc := ⟨.hbm, 128, rfl⟩
abbrev main_call3_v4 : Ref sig .tc := ⟨.hbm, 129, rfl⟩
abbrev main_call3_v5 : Ref sig .tc := ⟨.hbm, 130, rfl⟩
abbrev main_call3_v6 : Ref sig .tc := ⟨.hbm, 131, rfl⟩
abbrev main_call3_cst_1 : Ref sig .tc := ⟨.hbm, 132, rfl⟩
abbrev main_call3_v7 : Ref sig .tc := ⟨.hbm, 133, rfl⟩
abbrev main_call3_v8 : Ref sig .tc := ⟨.hbm, 134, rfl⟩
abbrev main_call3_v9 : Ref sig .tc := ⟨.hbm, 135, rfl⟩
abbrev main_call3_v10 : Ref sig .tc := ⟨.hbm, 136, rfl⟩
abbrev main_v93 : Ref sig .tc := ⟨.hbm, 137, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x16_0_1 : S1700000x1.BroadcastsInDim S1700000x16 (![0, 1] : Fin 2 → Fin S1700000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S100000_d1 : S100000x16.ReducesTo [1] S100000
  h_S_ : 0 < S_.numel
  bcast_S100000_S100000x1_0 : S100000.BroadcastsInDim S100000x1 (![0] : Fin 1 → Fin S100000x1.rank)
  bcast_S100000x1_S100000x16_0_1 : S100000x1.BroadcastsInDim S100000x16 (![0, 1] : Fin 2 → Fin S100000x16.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x256_S256x128_S100000x128_1_0_0_1_n_n_wf : DotDims.WF S100000x256 S256x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x16_S100000x16_1_0_0_1_n_n_wf : DotDims.WF S100000x128 S128x16 S100000x16 [1] [0] [0] [1] [] []
  gather_S100000x16_S1700000x1_S1700000x16_1_0_n_n_0_1_116_wf : GatherDims.WF S100000x16 S1700000x1 S1700000x16 [1] [0] [] [0] [] 1 ![1, 16]
  scatter_S100000x16_S1700000x1_S1700000x16_1_0_0_1_wf : ScatterDims.WF S100000x16 S1700000x1 S1700000x16 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x256_S256x128_S100000x128_1_0_0_1_n_n : DotDims S100000x256 S256x128 S100000x128 where
  lhsContracting := [1]
  rhsContracting := [0]
  lhsNonContracting := [0]
  rhsNonContracting := [1]
  lhsBatch := []
  rhsBatch := []
  wf := dot_S100000x256_S256x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf
def gather_S100000x16_S1700000x1_S1700000x16_1_0_n_n_0_1_116 : GatherDims S100000x16 S1700000x1 S1700000x16 where
  offsetDims := [1]
  collapsedSliceDims := [0]
  operandBatchingDims := []
  startIndicesBatchingDims := []
  startIndexMap := [0]
  indexVectorDim := 1
  sliceSizes := ![1, 16]
  wf := gather_S100000x16_S1700000x1_S1700000x16_1_0_n_n_0_1_116_wf
def scatter_S100000x16_S1700000x1_S1700000x16_1_0_0_1 : ScatterDims S100000x16 S1700000x1 S1700000x16 where
  updateWindowDims := [1]
  insertedWindowDims := [0]
  scatterDimsToOperandDims := [0]
  indexVectorDim := 1
  wf := scatter_S100000x16_S1700000x1_S1700000x16_1_0_0_1_wf

class Facts : Prop extends Facts₀ where

variable [Facts]
-- ==== Proof.KernelRun.lean ====
/-
  The tiled program's run, with its result named.

  The program is eight segments: three stretches of host operations, then the first tiled region, a stretch, the
  second region, a stretch, the third region. Core c's buffers at each boundary are a fold from the launch
  memory: a stretch applies its operations in order; a region leaves its windows' arrays at what its write-backs
  leave and every other buffer as it found it. The generated frame states this run with only the argument arrays
  in its conclusion. Here the same run is stated once more with the result buffer read as well: after every weakly
  fair execution the result holds what the last boundary's contents give it, which is the third region's output
  array after its 25 write-backs, and the six arguments are as launched.
-/
import proofs.«135146_j54477365182993_2_alg».proof.Proof.Gen.KernelIdeal.Frame

set_option maxRecDepth 16384

noncomputable section

namespace Cert.KernelIdeal.KernelRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the tiled program from `m` terminates without a fault; the result buffer then
    holds the last boundary's contents at it, and the argument arrays are unchanged. -/
theorem run_result : θ_run defs (onTc (τ := τ) (main (F := F))) ⟨m, fun _ => 0, ρ⟩ (fun r => ∀ c : Dev nD,
      r.2.mem ((c.tc : Thread nD τ).loc main_v64) = W8 m ρ c (Proc.devRef .tc main_v64)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h c =>
      ⟨h c _ (mem_uc main_v64 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)

/-- The last boundary's contents at the result buffer are the third region's output array after its write-backs. -/
theorem result_eq (c : Dev nD) :
    W8 m ρ c (Proc.devRef .tc main_v64) = (dat2 (V7 m ρ) c).arrAt 2 cfg2.N :=
  W8_arr m ρ c 2

end Cert.KernelIdeal.KernelRun

end
-- ==== Proof.Spec.lean ====
/-
  The three dense stages of the two-layer graph convolution, each as ONE function of whole arrays of
  extended reals, index by index. Between them the network gathers rows along the edges, scales them by the
  symmetric degree normalisation and adds them up at the destination nodes; those stretches are the same
  operations in both programs and are never opened, so only the dense stages need a formula.

  * `linear X W`       : the feature transform, entry (p, q) is  Σ_k X(p,k) · W(k,q).
  * `hidden A b W`     : bias, rectifier and the second transform fused,
                          entry (p, q) is  Σ_k max(A(p,k) + b(0,k), 0) · W(k,q).
  * `logSoftmax A b`   : with x(p,q) = A(p,q) + b(0,q) and M(p) the largest x(p,·) (folded from -∞),
                          entry (p, q) is  (x(p,q) - M(p)) - log Σ_r exp(x(p,r) - M(p)).

  The bias is taken as a one-row matrix, the layout in which the tiled program reads it.
-/
import Idealize.ShloMosaic.PureOps.Ideal
import Idealize.ShloMosaic.Lib.ValueIdx

noncomputable section

namespace Cert.Spec

open Idealize.ShloMosaic Idealize.ShloMosaic.ValueIdx
open scoped BigOperators

/-- A matrix of extended reals with `a` rows and `b` columns. -/
abbrev Mat (a b : Nat) : Type := (⟨2, ![a, b]⟩ : Shape).Idx → EReal

/-- The feature transform: entry (p, q) is the sum over k of X(p,k) · W(k,q). -/
def linear (X : Mat 100000 256) (W : Mat 256 128) : Mat 100000 128 :=
  fun j => ∑ k : Fin 256, X (ix2 (j 0) k) * W (ix2 k (j 1))

/-- Bias, rectifier and the second transform: entry (p, q) is the sum over k of
    max(A(p,k) + b(0,k), 0) · W(k,q). The zero is kept as the word both programs write. -/
def hidden (A : Mat 100000 128) (b : Mat 1 128) (W : Mat 128 16) : Mat 100000 16 :=
  fun j => ∑ k : Fin 128,
    max (A (ix2 (j 0) k) + b (ix2 0 k)) (Ideal.ofBits .f32 0x00000000#32) * W (ix2 k (j 1))

/-- The biased score of node p for class q. -/
def score (A : Mat 100000 16) (b : Mat 1 16) (p : Fin 100000) (q : Fin 16) : EReal :=
  A (ix2 p q) + b (ix2 0 q)

/-- The largest score of node p, folded from -∞ over the sixteen classes. -/
def rowMax (A : Mat 100000 16) (b : Mat 1 16) (p : Fin 100000) : EReal :=
  (Finset.univ : Finset (Fin 16)).fold max (Ideal.ofBits .f32 0xFF800000#32) (fun q => score A b p q)

/-- The log-softmax of the biased scores along the class axis, shifted by the row maximum. -/
def logSoftmax (A : Mat 100000 16) (b : Mat 1 16) : Mat 100000 16 :=
  fun j => (score A b (j 0) (j 1) - rowMax A b (j 0))
    - Ideal.log (∑ r : Fin 16, Ideal.exp (score A b (j 0) r - rowMax A b (j 0)))

end Cert.Spec

end
-- ==== Proof.RefValue.lean ====
/-
  The reference's three dense stages are the specification's functions.

  The reference computes the feature transform as one matrix product over all 100000 nodes, adds the bias after
  broadcasting it over the rows, rectifies, multiplies by the second weight matrix, and ends in a log-softmax written
  with a row maximum that is taken once more against -∞ and a row sum that starts from the word 0. Index by index:

  * the first product at (p, q) is Σ_k X(p,k)·W(k,q);
  * the second at (p, q) is Σ_k max(A(p,k) + b(k), 0)·W(k,q), A the first aggregate: the bias broadcast to
    100000 rows reads b at the column;
  * the row maximum is the fold of max from -∞ over the sixteen scores of the row; taking max with -∞ again changes
    nothing because a fold of max never falls below where it starts; the row sum starting from the word 0 is the plain
    sum because that word is the number 0.

  The bias vector is read as a one-row matrix (`asRow`), the layout the specification takes it in.
-/
import proofs.«135146_j54477365182993_2_alg».proof.Proof.RefRead
import proofs.«135146_j54477365182993_2_alg».proof.Proof.Spec
import Idealize.ShloMosaic.Lib.ValueIdx
import Idealize.ShloMosaic.PureOps.Ideal.Laws

set_option maxRecDepth 16384

noncomputable section

namespace Cert.ReferenceIdeal.RefValue

open Idealize.ShloMosaic Idealize.ShloMosaic.ValueIdx
open Cert.ReferenceIdeal Cert.ReferenceIdeal.Gen Cert.ReferenceIdeal.Read
open scoped BigOperators

/-- A vector of n extended reals laid out as a matrix of one row. -/
def asRow {n : Nat} (b : (⟨1, ![n]⟩ : Shape).Idx → EReal) : Cert.Spec.Mat 1 n := fun j => b (ix1 (j 1))

theorem asRow_apply {n : Nat} (b : (⟨1, ![n]⟩ : Shape).Idx → EReal) (k : Fin n) : asRow b (ix2 0 k) = b (ix1 k) := rfl

variable (x0 : (⟨S100000x256, .f32⟩ : BufTy).Contents (Elt Ideal)) (x1 : (⟨S2x1600000, .i32⟩ : BufTy).Contents (Elt Ideal))
  (x2 : (⟨S256x128, .f32⟩ : BufTy).Contents (Elt Ideal)) (x3 : (⟨S128, .f32⟩ : BufTy).Contents (Elt Ideal))
  (x4 : (⟨S128x16, .f32⟩ : BufTy).Contents (Elt Ideal)) (x5 : (⟨S16, .f32⟩ : BufTy).Contents (Elt Ideal))

/-- The first matrix product is the feature transform. -/
theorem transform_eq : val_main_v31 (F := Ideal) x0 x2 = Cert.Spec.linear x0 x2 := by
  funext i
  obtain ⟨p, q, rfl⟩ : ∃ (p : Fin 100000) (q : Fin 128), i = ix2 p q := ⟨i 0, i 1, eq_ix2 i⟩
  rw [val_main_v31_apply]
  show _ = ∑ k : Fin 256, x0 (ix2 p k) * x2 (ix2 k q)
  refine Finset.sum_congr rfl fun k _ => ?_
  have el : lidx_main_v31 (ix2 p q) k = ix2 p k :=
    funext fun a => Fin.ext (by match a with | ⟨0, _⟩ => rfl | ⟨1, _⟩ => rfl)
  have er : ridx_main_v31 (ix2 p q) k = ix2 k q :=
    funext fun a => Fin.ext (by match a with | ⟨0, _⟩ => rfl | ⟨1, _⟩ => rfl)
  rw [el, er]

/-- Bias, rectifier and the second matrix product: the specification's `hidden` of the first aggregate. -/
theorem hidden_eq : val_main_v76 (F := Ideal) x0 x1 x2 x3 x4
    = Cert.Spec.hidden (val_main_v44 (F := Ideal) x0 x1 x2) (asRow x3) x4 := by
  funext i
  obtain ⟨p, q, rfl⟩ : ∃ (p : Fin 100000) (q : Fin 16), i = ix2 p q := ⟨i 0, i 1, eq_ix2 i⟩
  rw [val_main_v76_apply]
  show _ = ∑ k : Fin 128, max (val_main_v44 (F := Ideal) x0 x1 x2 (ix2 p k) + asRow x3 (ix2 0 k))
    (Ideal.ofBits .f32 0x00000000#32) * x4 (ix2 k q)
  refine Finset.sum_congr rfl fun k _ => ?_
  have el : lidx_main_v76 (ix2 p q) k = ix2 p k :=
    funext fun a => Fin.ext (by match a with | ⟨0, _⟩ => rfl | ⟨1, _⟩ => rfl)
  have er : ridx_main_v76 (ix2 p q) k = ix2 k q :=
    funext fun a => Fin.ext (by match a with | ⟨0, _⟩ => rfl | ⟨1, _⟩ => rfl)
  have eb : idx_main_v45 (idx_main_v46 (ix2 p k)) = ix1 k :=
    funext fun a => Fin.ext (by match a with | ⟨0, _⟩ => rfl)
  rw [el, er, val_main_v48_apply, val_main_v47_apply, val_main_v46_apply, val_main_v45_apply, eb,
    val_main_call1_v0_apply, val_main_call1_cst_apply]
  rfl

/-! ## The log-softmax -/

/-- The biased score at (p, q). -/
theorem score_eq (p : Fin 100000) (q : Fin 16) :
    val_main_v92 (F := Ideal) x0 x1 x2 x3 x4 x5 (ix2 p q)
      = Cert.Spec.score (val_main_v89 (F := Ideal) x0 x1 x2 x3 x4) (asRow x5) p q := by
  have eb : idx_main_v90 (idx_main_v91 (ix2 p q)) = ix1 q :=
    funext fun a => Fin.ext (by match a with | ⟨0, _⟩ => rfl)
  rw [val_main_v92_apply, val_main_v91_apply, val_main_v90_apply, eb]
  rfl

/-- Row p with class q put back is the index (p, q). -/
theorem lift_row (h : S100000x16.Reduces [1] S100000) (p : Fin 100000) (q : Fin (S100000x16.size 1)) :
    h.lift (ix1 p) q = ix2 p (⟨q.val, q.isLt⟩ : Fin 16) := by
  funext c; apply Fin.ext
  match c with
  | ⟨0, _⟩ => rfl
  | ⟨1, _⟩ => rfl

/-- For any array of scores: the host's maximum over the class axis from -∞, taken once more against -∞, is at row p
    the fold of max from -∞ over the row (a fold of max never falls below where it starts). -/
theorem rowMax_of (y : FVec Ideal S100000x16 .f32) (p : Fin 100000) :
    FloatOps.maximumf (F := Ideal) (FloatOps.ofBits .f32 0xFF800000#32)
      (Host.reduce FloatOps.maximumf y (constant (F := Ideal) S_ .f32 0xFF800000#32)
        reducesTo_S100000x16_S100000_d1 h_S_ (ix1 p))
      = (Finset.univ : Finset (Fin 16)).fold max (Ideal.ofBits .f32 0xFF800000#32) (fun q => y (ix2 p q)) := by
  have h : S100000x16.Reduces [1] S100000 := by decide
  rw [Host.reduce_eq_fold_single FloatOps.maximumf y _ reducesTo_S100000x16_S100000_d1 h h_S_]
  have hf : (y ∘ h.lift (ix1 p)) = fun q : Fin 16 => y (ix2 p q) := funext fun q => congrArg y (lift_row h p q)
  rw [hf]
  show max (Ideal.ofBits .f32 0xFF800000#32)
      ((Finset.univ : Finset (Fin 16)).fold max (Ideal.ofBits .f32 0xFF800000#32) (fun q => y (ix2 p q))) = _
  exact max_eq_right ((Finset.le_fold_max _).mpr (Or.inl le_rfl))

/-- The reference's row maximum is the specification's. -/
theorem rowMax_eq (p : Fin 100000) :
    val_main_call3_v2 (F := Ideal) x0 x1 x2 x3 x4 x5 (ix1 p)
      = Cert.Spec.rowMax (val_main_v89 (F := Ideal) x0 x1 x2 x3 x4) (asRow x5) p := by
  rw [val_main_call3_v2_apply, val_main_call3_v1_apply, val_main_call3_cst_0_apply]
  unfold val_main_call3_v0 val_main_call3_cst
  have hs : ∀ q : Fin 16, val_main_v92 (F := Ideal) x0 x1 x2 x3 x4 x5 (ix2 p q)
      = Cert.Spec.score (val_main_v89 (F := Ideal) x0 x1 x2 x3 x4) (asRow x5) p q := fun q => score_eq x0 x1 x2 x3 x4 x5 p q
  generalize val_main_v92 (F := Ideal) x0 x1 x2 x3 x4 x5 = y at hs ⊢
  rw [rowMax_of y p]
  unfold Cert.Spec.rowMax
  exact congrArg (fun f => (Finset.univ : Finset (Fin 16)).fold max (Ideal.ofBits .f32 0xFF800000#32) f) (funext hs)

/-- A score shifted by its row's maximum. -/
theorem shifted_eq (p : Fin 100000) (q : Fin 16) :
    val_main_call3_v5 (F := Ideal) x0 x1 x2 x3 x4 x5 (ix2 p q)
      = Cert.Spec.score (val_main_v89 (F := Ideal) x0 x1 x2 x3 x4) (asRow x5) p q
        - Cert.Spec.rowMax (val_main_v89 (F := Ideal) x0 x1 x2 x3 x4) (asRow x5) p := by
  have e : idx_main_call3_v3 (idx_main_call3_v4 (ix2 p q)) = ix1 p :=
    funext fun a => Fin.ext (by match a with | ⟨0, _⟩ => rfl)
  rw [val_main_call3_v5_apply, score_eq, val_main_call3_v4_apply, val_main_call3_v3_apply, e, rowMax_eq, Ideal.subf_def]

/-- The logarithm of the row's sum of exponentials of the shifted scores. -/
theorem logSum_eq (p : Fin 100000) (q : Fin 16) :
    val_main_call3_v10 (F := Ideal) x0 x1 x2 x3 x4 x5 (ix2 p q)
      = Ideal.log (∑ r : Fin 16, Ideal.exp
          (Cert.Spec.score (val_main_v89 (F := Ideal) x0 x1 x2 x3 x4) (asRow x5) p r
            - Cert.Spec.rowMax (val_main_v89 (F := Ideal) x0 x1 x2 x3 x4) (asRow x5) p)) := by
  have e : idx_main_call3_v8 (idx_main_call3_v10 (ix2 p q)) = ix1 p :=
    funext fun a => Fin.ext (by match a with | ⟨0, _⟩ => rfl)
  rw [val_main_call3_v10_apply, val_main_call3_v9_apply, val_main_call3_v8_apply, e, val_main_call3_v7_apply,
    val_main_call3_cst_1_apply]
  rw [Ideal.hostUnary_log_def, Ideal.ofBits_def, Ideal.ofBits_zero_f32, zero_add]
  refine congrArg Ideal.log (Finset.sum_congr rfl fun r _ => ?_)
  have er : idx_main_call3_v7 (ix1 p) r = ix2 p r :=
    funext fun a => Fin.ext (by match a with | ⟨0, _⟩ => rfl | ⟨1, _⟩ => rfl)
  rw [val_main_call3_v6_apply, er, shifted_eq, Ideal.hostUnary_exp_def]

/-- The reference's result is the specification's log-softmax of the second aggregate and the bias. -/
theorem logSoftmax_eq : val_main_v93 (F := Ideal) x0 x1 x2 x3 x4 x5
    = Cert.Spec.logSoftmax (val_main_v89 (F := Ideal) x0 x1 x2 x3 x4) (asRow x5) := by
  funext i
  obtain ⟨p, q, rfl⟩ : ∃ (p : Fin 100000) (q : Fin 16), i = ix2 p q := ⟨i 0, i 1, eq_ix2 i⟩
  rw [val_main_v93_apply, shifted_eq, logSum_eq, Ideal.subf_def]
  rfl

end Cert.ReferenceIdeal.RefValue

end
-- ==== Proof.Region0.lean ====
/-
  The first dense stage: the feature transform  X ↦ X · W  on the tiled grid.

  The 100000 rows of X are cut into 25 tiles of 4000 rows. At tile t the body takes rows 4000·t … 4000·t + 3999 of X
  (all 256 columns) and the whole 256 × 128 weight matrix W, multiplies them into a zero accumulator and writes the
  4000 × 128 product to the same rows of the output. Over the extended reals both roundings are the identity and the
  product is the plain sum over the contracted axis, so entry (r, q) of the tile's result is

      Σ_k X(4000·t + r, k) · W(k, q),

  which is entry (4000·t + r, q) of `Spec.linear X W`: every tile writes its own rows of that one matrix. Row p lies in
  tile p / 4000, so the 25 tiles cover the output, and the output array ends holding `Spec.linear X W`.
-/
import proofs.«135146_j54477365182993_2_alg».proof.Proof.Gen.KernelIdeal.Frame
import proofs.«135146_j54477365182993_2_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Region0

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx
open scoped BigOperators

/-! ## The tile's product at an entry

The product contracts the second axis of the left operand with the first axis of the right one. At output entry
`j = (p, q)` and contraction index `k` the left operand is read at `(p, k)` and the right one at `(k, q)`. -/

/-- The left operand is read in the output entry's row. -/
theorem lhs_row (j : S4000x128.Idx) (κ : dot_S4000x256_S256x128_S4000x128_1_0_0_1_n_n.contr.Idx) :
    (dot_S4000x256_S256x128_S4000x128_1_0_0_1_n_n.lhsIdx j κ 0).val = (j 0).val := by
  unfold DotDims.lhsIdx
  rw [dif_neg (show ¬(0 : Fin S4000x256.rank) ∈ dot_S4000x256_S256x128_S4000x128_1_0_0_1_n_n.lhsBatch by decide), dif_pos (show (0 : Fin S4000x256.rank) ∈ dot_S4000x256_S256x128_S4000x128_1_0_0_1_n_n.lhsNonContracting by decide)]
  rfl
/-- The left operand's column is the contraction index. -/
theorem lhs_col (j : S4000x128.Idx) (κ : dot_S4000x256_S256x128_S4000x128_1_0_0_1_n_n.contr.Idx) :
    (dot_S4000x256_S256x128_S4000x128_1_0_0_1_n_n.lhsIdx j κ 1).val = (κ ⟨0, by decide⟩).val :=
  dot_S4000x256_S256x128_S4000x128_1_0_0_1_n_n.lhsIdx_val_of_single rfl j κ
/-- The right operand's row is the contraction index. -/
theorem rhs_row (j : S4000x128.Idx) (κ : dot_S4000x256_S256x128_S4000x128_1_0_0_1_n_n.contr.Idx) :
    (dot_S4000x256_S256x128_S4000x128_1_0_0_1_n_n.rhsIdx j κ 0).val = (κ ⟨0, by decide⟩).val :=
  dot_S4000x256_S256x128_S4000x128_1_0_0_1_n_n.rhsIdx_val_of_single rfl j κ
/-- The right operand is read in the output entry's column. -/
theorem rhs_col (j : S4000x128.Idx) (κ : dot_S4000x256_S256x128_S4000x128_1_0_0_1_n_n.contr.Idx) :
    (dot_S4000x256_S256x128_S4000x128_1_0_0_1_n_n.rhsIdx j κ 1).val = (j 1).val := by
  unfold DotDims.rhsIdx
  rw [dif_neg (show ¬(1 : Fin S256x128.rank) ∈ dot_S4000x256_S256x128_S4000x128_1_0_0_1_n_n.rhsBatch by decide), dif_pos (show (1 : Fin S256x128.rank) ∈ dot_S4000x256_S256x128_S4000x128_1_0_0_1_n_n.rhsNonContracting by decide)]
  rfl

/-- Entry (p, q) of what the body stores, for any row tile `x` and weight block `w`: the roundings are the identity,
    the accumulator starts at zero, and the one contracted axis has 256 coordinates, so it is Σ_k x(p,k) · w(k,q). -/
theorem tile_product (x : FVec Ideal S4000x256 .f32) (w : FVec Ideal S256x128 .bf16) (p : Fin 4000) (q : Fin 128) :
    k0_pay1 (F := Ideal) x w (ix2 p q) = ∑ k : Fin 256, x (ix2 p k) * w (ix2 k q) := by
  unfold k0_pay1
  rw [shapeCast_self]
  refine (Ideal.matmul_constant_zero_apply (φ₁ := .bf16) (φ₂ := .bf16) dot_S4000x256_S256x128_S4000x128_1_0_0_1_n_n none (truncf .bf16 x bitsLt_bf16_f32) w (ix2 p q)).trans ?_
  rw [← Equiv.sum_comp (contrEquiv1 dot_S4000x256_S256x128_S4000x128_1_0_0_1_n_n 256 rfl rfl).symm]
  refine Finset.sum_congr rfl fun k _ => ?_
  have hk := contrEquiv1_symm_val dot_S4000x256_S256x128_S4000x128_1_0_0_1_n_n 256 rfl rfl k
  have el : dot_S4000x256_S256x128_S4000x128_1_0_0_1_n_n.lhsIdx (ix2 p q) ((contrEquiv1 dot_S4000x256_S256x128_S4000x128_1_0_0_1_n_n 256 rfl rfl).symm k) = ix2 p k := funext fun a => Fin.ext (by
    match a with
    | ⟨0, _⟩ => exact lhs_row _ _
    | ⟨1, _⟩ => exact (lhs_col _ _).trans hk)
  have er : dot_S4000x256_S256x128_S4000x128_1_0_0_1_n_n.rhsIdx (ix2 p q) ((contrEquiv1 dot_S4000x256_S256x128_S4000x128_1_0_0_1_n_n 256 rfl rfl).symm k) = ix2 k q := funext fun a => Fin.ext (by
    match a with
    | ⟨0, _⟩ => exact (rhs_row _ _).trans hk
    | ⟨1, _⟩ => exact rhs_col _ _)
  rw [el, er]
  rfl

/-! ## Where the tiles sit

A block's coordinate on an axis is (block index) × (block extent) + (coordinate inside the block). -/

theorem origin : (![0, 0] : Fin 2 → Nat) = fun _ => 0 := funext fun a => by fin_cases a <;> rfl

/-- The block indices over the 25 tiles: the row tile of X and the row tile of the output are both tile `t` on the row
    axis and the single block on the column axis; the weight matrix is one block, the same at every tile. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What tile `t` writes back is rows 4000·t … 4000·t + 3999 of `Spec.linear X W`: entry (r, q) of the tile's product
    reads row r of the tile of X, which is row 4000·t + r of X, and column q of W, and (4000·t + r, q) is where the
    output's tile puts entry (r, q). -/
theorem flushed_eq (c : Dev nD) (t : Fin cfg0.N) :
    (dat0 (F := Ideal) V c).flushed 2 t = ((cfg0.win 2).blk t).view.read (Elt Ideal) (Cert.Spec.linear (V c main_arg0) (V c main_v31)) := by
  show (cfg0.win 2).cut (grid0.coords t) ((dat0 V c).after 2 t) = _
  rw [after0_2]
  unfold out0_2
  rw [View.canon_unit_zero origin]
  simp only [View.ld_unit_zero (S := S4000x256) origin, View.ld_unit_zero (S := S256x128) origin]
  obtain ⟨e0, e1, e2, e3, e4, e5⟩ := block_indices t
  funext y
  show k0_pay1 (iblk0 V c 0 t) (iblk0 V c 1 t) y = Cert.Spec.linear (V c main_arg0) (V c main_v31) (((cfg0.win 2).blk t).view.emb y)
  refine ((congrArg (k0_pay1 (iblk0 V c 0 t) (iblk0 V c 1 t)) (eq_ix2 (y : S4000x128.Idx))).trans (tile_product (iblk0 V c 0 t) (iblk0 V c 1 t) (y 0) (y 1))).trans ?_
  unfold Cert.Spec.linear
  refine Finset.sum_congr rfl fun k _ => ?_
  -- entry (r, k) of the tile of X is entry (4000·t + r, k) of X
  have h0 : ((cfg0.win 0).blk t).view.emb (ix2 (y 0) k) = ix2 (((cfg0.win 2).blk t).view.emb y 0) k := by
    funext a; apply Fin.ext
    match a with
    | ⟨0, _⟩ => show win0_0.index t (0 : Fin 2) * 4000 + 1 * (y 0).val = win0_2.index t (0 : Fin 2) * 4000 + 1 * (y 0).val; omega
    | ⟨1, _⟩ => show win0_0.index t (1 : Fin 2) * 256 + 1 * k.val = k.val; omega
  -- entry (k, q) of the weight block is entry (k, q) of W
  have h1 : ((cfg0.win 1).blk t).view.emb (ix2 k (y 1)) = ix2 k (((cfg0.win 2).blk t).view.emb y 1) := by
    funext a; apply Fin.ext
    match a with
    | ⟨0, _⟩ => show win0_1.index t (0 : Fin 2) * 256 + 1 * k.val = k.val; omega
    | ⟨1, _⟩ => show win0_1.index t (1 : Fin 2) * 128 + 1 * (y 1).val = win0_2.index t (1 : Fin 2) * 128 + 1 * (y 1).val; omega
  exact congrArg₂ (fun a b : EReal => a * b) (congrArg (V c main_arg0 : Cert.Spec.Mat 100000 256) h0) (congrArg (V c main_v31 : Cert.Spec.Mat 256 128) h1)

/-! ## The tiles cover the output -/

/-- An entry of the output is in tile `t`'s block iff each coordinate is in the block's range on its axis. -/
theorem mem_tile (t : Fin cfg0.N) (i : S100000x128.Idx) :
    i ∈ ((cfg0.win 2).blk t).view.set ↔ ∀ a : Fin 2, win0_2.index t a * S4000x128.size a ≤ (i a).val ∧ (i a).val < win0_2.index t a * S4000x128.size a + S4000x128.size a := by
  show i ∈ ((View.whole main_v35).slice (win0_2.rect t)).set ↔ _
  rw [View.set_slice_whole, Rect.mem_set_unit]
  exact Iff.rfl

/-- Row p of the output lies in tile p / 4000 (25 · 4000 = 100000), whatever its column. -/
theorem cover (i : S100000x128.Idx) : ∃ t : Fin cfg0.N, (cfg0.win 2).flush t = true ∧ i ∈ ((cfg0.win 2).blk t).view.set := by
  have hi0 : (i 0).val < 100000 := (i 0).isLt
  have hi1 : (i 1).val < 128 := (i 1).isLt
  have hN : grid0.N = 25 := N_0
  have hlt : (i 0).val / 4000 < cfg0.N := by show _ < grid0.N; omega
  obtain ⟨t, ht⟩ : ∃ t : Fin cfg0.N, t.val = (i 0).val / 4000 := ⟨⟨(i 0).val / 4000, hlt⟩, rfl⟩
  obtain ⟨e0, e1, e2, e3, e4, e5⟩ := block_indices t
  refine ⟨t, flush0_2 t, ?_⟩
  rw [mem_tile]
  intro a
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 128 ≤ (i 1).val ∧ (i 1).val < win0_2.index t (1 : Fin 2) * 128 + 128; omega

/-- After the 25 tiles the output array is the feature transform of the arrays the region found: entry (p, q) is
    Σ_k X(p,k) · W(k,q). -/
theorem final (c : Dev nD) :
    (Gen.dat0 (F := Ideal) V c).arrAt 2 cfg0.N = Cert.Spec.linear (V c main_arg0) (V c main_v31) :=
  (dat0 V c).arrAt_eq_of_cover 2 (Cert.Spec.linear (V c main_arg0) (V c main_v31)) (fun t _ => flushed_eq V c t) cover

end Cert.KernelIdeal.Region0

end
-- ==== Proof.Region1.lean ====
/-
  The second dense stage: bias, rectifier and the second weight matrix, on the tiled grid.

  The 100000 rows of the first aggregate A are cut into 25 tiles of 4000 rows. At tile t the body takes rows
  4000·t … 4000·t + 3999 of A (all 128 columns), the bias as a row of 128 entries and the whole 128 × 16 weight matrix
  W, adds the bias row to every row of the tile, takes the maximum with zero, multiplies by W into a zero accumulator
  and writes the 4000 × 16 product to the same rows of the output. Over the extended reals the rounding in front of
  the product is the identity and the product is the plain sum over the contracted axis, so entry (r, q) of the
  tile's result is

      Σ_k max(A(4000·t + r, k) + b(0, k), 0) · W(k, q),

  which is entry (4000·t + r, q) of `Spec.hidden A b W`: every tile writes its own rows of that one matrix, a row of
  the result depending only on the same row of A. Row p lies in tile p / 4000, so the 25 tiles cover the output, and
  the output array ends holding `Spec.hidden A b W`.
-/
import proofs.«135146_j54477365182993_2_alg».proof.Proof.Gen.KernelIdeal.Frame
import proofs.«135146_j54477365182993_2_alg».proof.Proof.Spec
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region1

open Idealize.ShloMosaic Idealize.ShloMosaic.TcCoe Idealize.ShloMosaic.Tactic
open Idealize.SL Idealize.SL.Sem
open Idealize.ShloMosaic.Pipeline (Dat Cfg Window)
open Cert.KernelIdeal Cert.KernelIdeal.Gen Idealize.ShloMosaic.ValueIdx
open scoped BigOperators

/-- The tile's entry (p, q): the rectified, biased row p of the aggregate block against column q of the weight. -/
theorem pay_apply (x0 : Vec Ideal S4000x128 .f32) (x1 : Vec Ideal S1x128 .f32) (x2 : Vec Ideal S128x16 .bf16)
    (p : Fin 4000) (q : Fin 16) :
    k1_pay1 (F := Ideal) x0 x1 x2 (ix2 p q)
      = ∑ k : Fin 128, max (x0 (ix2 p k) + x1 (ix2 0 k)) (Ideal.ofBits .f32 0x00000000#32) * x2 (ix2 k q) := by
  unfold k1_pay1
  refine (Ideal.matmul_constant_zero_apply dot_S4000x128_S128x16_S4000x16_1_0_0_1_n_n none _ _ (ix2 p q)).trans ?_
  rw [← Equiv.sum_comp (contrEquiv1 dot_S4000x128_S128x16_S4000x16_1_0_0_1_n_n 128 rfl rfl).symm]
  refine Finset.sum_congr rfl fun k _ => ?_
  have hk := contrEquiv1_symm_val dot_S4000x128_S128x16_S4000x16_1_0_0_1_n_n 128 rfl rfl k
  have el : dot_S4000x128_S128x16_S4000x16_1_0_0_1_n_n.lhsIdx (ix2 p q)
      ((contrEquiv1 dot_S4000x128_S128x16_S4000x16_1_0_0_1_n_n 128 rfl rfl).symm k) = ix2 p k :=
    funext fun a => Fin.ext (by
      match a with
      | ⟨0, _⟩ =>
        show (dot_S4000x128_S128x16_S4000x16_1_0_0_1_n_n.lhsIdx (ix2 p q) _ 0).val = p.val
        unfold DotDims.lhsIdx
        rw [dif_neg (show ¬(0 : Fin S4000x128.rank) ∈ dot_S4000x128_S128x16_S4000x16_1_0_0_1_n_n.lhsBatch by decide),
          dif_pos (show (0 : Fin S4000x128.rank) ∈ dot_S4000x128_S128x16_S4000x16_1_0_0_1_n_n.lhsNonContracting by decide)]
        rfl
      | ⟨1, _⟩ =>
        exact (dot_S4000x128_S128x16_S4000x16_1_0_0_1_n_n.lhsIdx_val_of_single rfl (ix2 p q) _).trans hk)
  have er : dot_S4000x128_S128x16_S4000x16_1_0_0_1_n_n.rhsIdx (ix2 p q)
      ((contrEquiv1 dot_S4000x128_S128x16_S4000x16_1_0_0_1_n_n 128 rfl rfl).symm k) = ix2 k q :=
    funext fun a => Fin.ext (by
      match a with
      | ⟨0, _⟩ =>
        exact (dot_S4000x128_S128x16_S4000x16_1_0_0_1_n_n.rhsIdx_val_of_single rfl (ix2 p q) _).trans hk
      | ⟨1, _⟩ =>
        show (dot_S4000x128_S128x16_S4000x16_1_0_0_1_n_n.rhsIdx (ix2 p q) _ 1).val = q.val
        unfold DotDims.rhsIdx
        rw [dif_neg (show ¬(1 : Fin S128x16.rank) ∈ dot_S4000x128_S128x16_S4000x16_1_0_0_1_n_n.rhsBatch by decide),
          dif_pos (show (1 : Fin S128x16.rank) ∈ dot_S4000x128_S128x16_S4000x16_1_0_0_1_n_n.rhsNonContracting by decide)]
        rfl)
  rw [el, er, shapeCast_self, shapeCast_self, shapeCast_self]
  show max (x0 (ix2 p k) + broadcastTo S4000x128 x1 broadcasts_S1x128_S4000x128 (ix2 p k)) (Ideal.ofBits .f32 0x00000000#32) * x2 (ix2 k q) = _
  rw [broadcastTo_1b_ab_apply]

/-- The zero offsets of a whole-buffer access, however spelt. -/
theorem hz : (![0, 0] : Fin 2 → Nat) = fun _ => 0 := funext fun a => by fin_cases a <;> rfl

/-- The block index maps over the 25 row tiles: the aggregate and the output move down the rows with the
    tile number and have one column block; the bias row and the weight are one block each. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- Row tile t writes back rows 4000·t … 4000·t + 3999 of the hidden layer's output: entry (p, q) of the tile
    reads row p of the tile's aggregate block, which is row 4000·t + p of the aggregate, the whole bias row and
    the whole weight. -/
theorem flushed_eq (c : Dev nD) (t : Fin cfg1.N) :
    (dat1 (F := Ideal) V c).flushed 3 t
      = ((cfg1.win 3).blk t).view.read (Elt Ideal) (Cert.Spec.hidden (V c main_v49) (V c main_v33) (V c main_v32)) := by
  show (cfg1.win 3).cut (grid1.coords t) ((dat1 (F := Ideal) V c).after 3 t) = _
  rw [after1_3]
  unfold out1_3
  rw [View.canon_unit_zero hz]
  simp only [View.ld_unit_zero (S := S4000x128) hz, View.ld_unit_zero (S := S1x128) hz, View.ld_unit_zero (S := S128x16) hz]
  obtain ⟨e00, e01, e10, e11, e20, e21, e30, e31⟩ := idx_facts t
  funext y
  show k1_pay1 (F := Ideal) (iblk1 V c 0 t) (iblk1 V c 1 t) (iblk1 V c 2 t) y
      = Cert.Spec.hidden (V c main_v49) (V c main_v33) (V c main_v32) (((cfg1.win 3).blk t).view.emb y)
  refine (congrArg (k1_pay1 (F := Ideal) (iblk1 V c 0 t) (iblk1 V c 1 t) (iblk1 V c 2 t)) (eq_ix2 (n0 := 4000) (n1 := 16) y)).trans ?_
  refine (pay_apply (iblk1 V c 0 t) (iblk1 V c 1 t) (iblk1 V c 2 t) (y 0) (y 1)).trans ?_
  unfold Cert.Spec.hidden
  refine Finset.sum_congr rfl fun k _ => ?_
  have hy0 : (y 0).val < 4000 := (y 0).isLt
  have hy1 : (y 1).val < 16 := (y 1).isLt
  have hk : k.val < 128 := k.isLt
  -- row p of the tile's aggregate block is row 4000·t + p of the aggregate, the row the output entry sits in
  have h0 : ((cfg1.win 0).blk t).view.emb (ix2 (y 0) k) = ix2 (((cfg1.win 3).blk t).view.emb y 0) k := by
    funext a; apply Fin.ext
    match a with
    | ⟨0, _⟩ => show win1_0.index t (0 : Fin 2) * 4000 + 1 * (y 0).val = win1_3.index t (0 : Fin 2) * 4000 + 1 * (y 0).val; omega
    | ⟨1, _⟩ => show win1_0.index t (1 : Fin 2) * 128 + 1 * k.val = k.val; omega
  -- the bias row's block is the bias row
  have h1 : ((cfg1.win 1).blk t).view.emb (ix2 (0 : Fin 1) k) = ix2 (0 : Fin 1) k := by
    funext a; apply Fin.ext
    match a with
    | ⟨0, _⟩ => show win1_1.index t (0 : Fin 2) * 1 + 1 * 0 = 0; omega
    | ⟨1, _⟩ => show win1_1.index t (1 : Fin 2) * 128 + 1 * k.val = k.val; omega
  -- the weight's block is the weight; the output's column is the tile's column
  have h2 : ((cfg1.win 2).blk t).view.emb (ix2 k (y 1)) = ix2 k (((cfg1.win 3).blk t).view.emb y 1) := by
    funext a; apply Fin.ext
    match a with
    | ⟨0, _⟩ => show win1_2.index t (0 : Fin 2) * 128 + 1 * k.val = k.val; omega
    | ⟨1, _⟩ => show win1_2.index t (1 : Fin 2) * 16 + 1 * (y 1).val = win1_3.index t (1 : Fin 2) * 16 + 1 * (y 1).val; omega
  have key : ∀ (A : Cert.Spec.Mat 100000 128) (b : Cert.Spec.Mat 1 128) (W : Cert.Spec.Mat 128 16),
      max (A (((cfg1.win 0).blk t).view.emb (ix2 (y 0) k)) + b (((cfg1.win 1).blk t).view.emb (ix2 (0 : Fin 1) k)))
          (Ideal.ofBits .f32 0x00000000#32) * W (((cfg1.win 2).blk t).view.emb (ix2 k (y 1)))
        = max (A (ix2 (((cfg1.win 3).blk t).view.emb y 0) k) + b (ix2 (0 : Fin 1) k))
          (Ideal.ofBits .f32 0x00000000#32) * W (ix2 k (((cfg1.win 3).blk t).view.emb y 1)) := by
    intro A b W; rw [h0, h1, h2]; rfl
  exact key (V c main_v49) (V c main_v33) (V c main_v32)

/-- An index of the output array is in row tile t's block iff each coordinate is in the block's range on its axis. -/
theorem mem_blk (t : Fin cfg1.N) (i : S100000x16.Idx) :
    i ∈ ((cfg1.win 3).blk t).view.set ↔ ∀ a : Fin 2, win1_3.index t a * S4000x16.size a ≤ (i a).val
      ∧ (i a).val < win1_3.index t a * S4000x16.size a + S4000x16.size a := by
  show i ∈ ((View.whole main_v50).slice (win1_3.rect t)).set ↔ _
  rw [View.set_slice_whole, Rect.mem_set_unit]
  exact Iff.rfl

/-- The 25 tiles of 4000 rows tile the 100000 rows: row r lies in tile r / 4000, and the one column block holds
    all 16 columns. -/
theorem cover (i : S100000x16.Idx) :
    ∃ t : Fin cfg1.N, (cfg1.win 3).flush t = true ∧ i ∈ ((cfg1.win 3).blk t).view.set := by
  have hi0 : (i 0).val < 100000 := (i 0).isLt
  have hi1 : (i 1).val < 16 := (i 1).isLt
  have ht : (i 0).val / 4000 < cfg1.N := lt_of_lt_of_eq (by omega : (i 0).val / 4000 < 25) N_1.symm
  obtain ⟨-, -, -, -, -, -, e30, e31⟩ := idx_facts ⟨(i 0).val / 4000, ht⟩
  refine ⟨⟨(i 0).val / 4000, ht⟩, flush1_3 _, ?_⟩
  rw [mem_blk]
  intro a
  match a with
  | ⟨0, _⟩ =>
    show win1_3.index ⟨(i 0).val / 4000, ht⟩ (0 : Fin 2) * 4000 ≤ (i 0).val
      ∧ (i 0).val < win1_3.index ⟨(i 0).val / 4000, ht⟩ (0 : Fin 2) * 4000 + 4000
    rw [e30]; show (i 0).val / 4000 * 4000 ≤ (i 0).val ∧ (i 0).val < (i 0).val / 4000 * 4000 + 4000; omega
  | ⟨1, _⟩ =>
    show win1_3.index ⟨(i 0).val / 4000, ht⟩ (1 : Fin 2) * 16 ≤ (i 1).val
      ∧ (i 1).val < win1_3.index ⟨(i 0).val / 4000, ht⟩ (1 : Fin 2) * 16 + 16
    rw [e31]; omega

/-- After the 25 row tiles the output array holds the hidden layer's output of the region's three inputs as the
    region found them. -/
theorem final (c : Dev nD) :
    (Gen.dat1 (F := Ideal) V c).arrAt 3 cfg1.N = Cert.Spec.hidden (V c main_v49) (V c main_v33) (V c main_v32) :=
  (Gen.dat1 (F := Ideal) V c).arrAt_eq_of_cover 3 (Cert.Spec.hidden (V c main_v49) (V c main_v33) (V c main_v32))
    (fun t _ => flushed_eq V c t) cover

end Cert.KernelIdeal.Region1

end
-- ==== Proof.LibColumnLayout.lean ====
/-
  Column forms of two layout operations, read at an index built from coordinates.

  A sum over the last axis taken with the reduced axis kept (a column of row sums) meets two layout operations the
  library reads only in their row forms: the cast of a vector `[a]` to a column `[a, 1]`, and the broadcast of a column
  `[a, 1]` across `b` columns to `[a, b]`. Both read, at `(i, ·)`, the operand's entry of row `i`.
-/
import Idealize.ShloMosaic.Lib.Pipeline.Value
import Idealize.ShloMosaic.Lib.ValueIdx

namespace Idealize.ShloMosaic.ColumnLayout

open Idealize.ShloMosaic Idealize.ShloMosaic.ValueIdx

variable {α : Type}

/-- A vector `[a]` cast to a column `[a, 1]` reads, at `(i, u)`, the operand at `i`, whatever the unit coordinate `u`:
    both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the operand's one entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout
-- ==== Proof.LibIndexLayout.lean ====
/-
  Three small facts about indices of rank-2 arrays, stated over indices built from coordinates.

  A rank-2 index is determined by its two coordinates. A column `[a, 1]` re-laid as a row `[1, a]` keeps its entries in
  order: entry `(0, k)` of the row is entry `(k, 0)` of the column, both being the `k`-th in row-major order. And when an
  `[M, K]` array is summed along its rows into a vector `[M]`, the entry that the sum at `p` reads for the lane `k` is
  `(p, k)`.
-/
import Idealize.ShloMosaic.Lib.Pipeline.Value
import Idealize.ShloMosaic.Lib.ValueIdx
import Idealize.ShloMosaic.PureOps.Reduce

namespace Cert.Lib.IndexLayout

open Idealize.ShloMosaic Idealize.ShloMosaic.ValueIdx

/-- A rank-2 index is the pair of its coordinates. -/
theorem ix2_ext {n0 n1 : Nat} (j : (⟨2, ![n0, n1]⟩ : Shape).Idx) (a : Fin n0) (b : Fin n1) (h0 : j 0 = a) (h1 : j 1 = b) :
    j = ix2 a b := by
  funext d
  match d with
  | ⟨0, _⟩ => exact h0
  | ⟨1, _⟩ => exact h1

/-- A column `[a, 1]` re-laid as a row `[1, a]` reads, at `(0, k)`, the column's entry `(k, 0)`. -/
theorem shapeCast_a1_1a_apply {α : Type} {a : ℕ} (x : (⟨2, ![a, 1]⟩ : Shape).Idx → α)
    (h : (⟨2, ![a, 1]⟩ : Shape).ShapeCasts ⟨2, ![1, a]⟩) (k : Fin a) :
    shapeCast ⟨2, ![1, a]⟩ x h (ix2 (0 : Fin 1) k) = x (ix2 k (0 : Fin 1)) :=
  shapeCast_apply x h _ _ (by
    rw [Shape.rowMajor_val_two, Shape.rowMajor_val_two]
    show k.val * 1 + 0 = 0 * a + k.val
    omega)

/-- Summing an `[M, K]` array along its rows: the source index over the row `p` with the lane `k` inserted is `(p, k)`. -/
theorem lift_row (M K : Nat) (hred : (⟨2, ![M, K]⟩ : Shape).Reduces [1] ⟨1, ![M]⟩) (p : Fin M) (k : Fin K) :
    hred.lift (ix1 p) k = ix2 p k := by
  funext c
  apply Fin.ext
  match c with
  | ⟨0, _⟩ => rfl
  | ⟨1, _⟩ => rfl

end Cert.Lib.IndexLayout
-- ==== Proof.Region2.lean ====
/-
  The third dense stage of the network, tile by tile.

  The output of the stage is a 100000 × 16 matrix cut into 25 tiles of 4000 rows. The tile of rows 4000·t … 4000·t + 3999
  is computed from the same rows of the aggregated matrix and from the bias row: each stored entry (p, q) is the biased
  score x(p,q) = A(p,q) + b(0,q) shifted by the row's largest score M(p) and by the logarithm of Σ_r exp (x(p,r) - M(p)).
  An entry of row p depends on row p alone, so the 25 tiles are the restrictions of ONE function of the whole matrices,
  the log-softmax of the specification; since the tiles cover every row, the array ends holding that function.
-/
import proofs.«135146_j54477365182993_2_alg».proof.Proof.Gen.KernelIdeal.Frame
import proofs.«135146_j54477365182993_2_alg».proof.Proof.Spec
import proofs.«135146_j54477365182993_2_alg».proof.Proof.LibColumnLayout
import proofs.«135146_j54477365182993_2_alg».proof.Proof.LibIndexLayout
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Region2

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Idealize.ShloMosaic.ValueIdx
open Idealize.ShloMosaic.ColumnLayout Cert.Lib.IndexLayout
open scoped BigOperators

/-! ## The stored tile at an index -/
/-- The biased score inside a tile: entry (p, q) of the tile plus entry q of the bias row. -/
def tscore (x0 : Vec Ideal S4000x16 .f32) (x1 : Vec Ideal S1x16 .f32) (p : Fin 4000) (q : Fin 16) : EReal :=
  x0 (ix2 p q) + x1 (ix2 (0 : Fin 1) q)

/-- The largest biased score of row p of a tile, folded from -∞ over the sixteen classes. -/
def tmax (x0 : Vec Ideal S4000x16 .f32) (x1 : Vec Ideal S1x16 .f32) (p : Fin 4000) : EReal :=
  (Finset.univ : Finset (Fin 16)).fold max (Ideal.ofBits .f32 0xFF800000#32) (fun r => tscore x0 x1 p r)

/-- The row maximum of a 4000 × 16 tile, read at row p: the fold of max from the start value over the row's sixteen entries. -/
theorem rowMax_apply (x : FVec Ideal S4000x16 .f32) (acc : BitVec 32) (h : S4000x16.Reduces [1] S4000)
    (hφ : FKind.Formats .f32) (hacc : acc = FKind.maximumf.neutral .f32 hφ) (p : Fin 4000) :
    multiReduction (F := Ideal) .maximumf [1] S4000 x acc h hφ hacc (ix1 p)
      = (Finset.univ : Finset (Fin 16)).fold max (Ideal.ofBits .f32 acc) (fun r => x (ix2 p r)) := by
  refine (Ideal.multiReduction_maximumf_single x acc h hφ hacc (ix1 p)).trans ?_
  refine congrArg (fun f => (Finset.univ : Finset (Fin 16)).fold max (Ideal.ofBits .f32 acc) f) ?_
  funext r
  exact congrArg x (lift_row 4000 16 h p r)

/-- The row sum of a 4000 × 16 tile, read at row p: the sum of the row's sixteen entries. -/
theorem rowSum_apply (x : FVec Ideal S4000x16 .f32) (acc : BitVec 32) (h : S4000x16.Reduces [1] S4000)
    (hφ : FKind.Formats .f32) (hacc : acc = FKind.add.neutral .f32 hφ) (p : Fin 4000) :
    multiReduction (F := Ideal) .add [1] S4000 x acc h hφ hacc (ix1 p) = ∑ r : Fin 16, x (ix2 p r) := by
  refine (Ideal.multiReduction_add_single x acc h hφ hacc (ix1 p)).trans ?_
  exact Finset.sum_congr rfl fun r _ => congrArg x (lift_row 4000 16 h p r)

/-- A vector of 4000 row values, laid as a column and spread over the sixteen classes, reads at (p, q) the value of row p. -/
theorem column_apply (v : FVec Ideal S4000 .f32) (hc : S4000.ShapeCasts S4000x1) (hb : S4000x1.Broadcasts S4000x16)
    (p : Fin 4000) (q : Fin 16) :
    broadcastTo S4000x16 (shapeCast S4000x1 v hc) hb (ix2 p q) = v (ix1 p) :=
  (broadcastTo_a1_ab_apply _ hb p q).trans (shapeCast_a_a1_apply v hc p 0)

/-- The largest entry of row p of a tile, folded from -∞ over the sixteen classes. -/
def rmax (x : FVec Ideal S4000x16 .f32) (p : Fin 4000) : EReal :=
  (Finset.univ : Finset (Fin 16)).fold max (Ideal.ofBits .f32 0xFF800000#32) (fun r => x (ix2 p r))

/-- The shifted log-softmax of an arbitrary 4000 × 16 tile x, read at (p, q): with M the largest entry of row p,
    (x(p,q) - M) - log Σ_r exp (x(p,r) - M). Every entry of row p depends on row p of x only. -/
theorem logSoftmax_tile_apply (x : FVec Ideal S4000x16 .f32) (h : S4000x16.Reduces [1] S4000)
    (hφ : FKind.Formats .f32) (haccM : (0xFF800000#32 : BitVec 32) = FKind.maximumf.neutral .f32 hφ)
    (haccS : (0x00000000#32 : BitVec 32) = FKind.add.neutral .f32 hφ)
    (hc : S4000.ShapeCasts S4000x1) (hb : S4000x1.Broadcasts S4000x16) (p : Fin 4000) (q : Fin 16) :
    subf
      (subf x (broadcastTo S4000x16 (shapeCast S4000x1
        (multiReduction (F := Ideal) .maximumf [1] S4000 x 0xFF800000#32 h hφ haccM) hc) hb))
      (broadcastTo S4000x16 (log (shapeCast S4000x1
        (multiReduction (F := Ideal) .add [1] S4000
          (exp (subf x (broadcastTo S4000x16 (shapeCast S4000x1
            (multiReduction (F := Ideal) .maximumf [1] S4000 x 0xFF800000#32 h hφ haccM) hc) hb)))
          0x00000000#32 h hφ haccS) hc)) hb)
      (ix2 p q)
    = (x (ix2 p q) - rmax x p) - Ideal.log (∑ r : Fin 16, Ideal.exp (x (ix2 p r) - rmax x p)) := by
  -- the shifted tile at (p, r): the entry minus the row's maximum
  have hz : ∀ r : Fin 16,
      subf x (broadcastTo S4000x16 (shapeCast S4000x1
        (multiReduction (F := Ideal) .maximumf [1] S4000 x 0xFF800000#32 h hφ haccM) hc) hb) (ix2 p r)
      = x (ix2 p r) - rmax x p :=
    fun r => congrArg (fun y : EReal => x (ix2 p r) - y)
      ((column_apply _ hc hb p r).trans (rowMax_apply x _ h hφ haccM p))
  refine (subf_apply _ _ (ix2 p q)).trans ?_
  rw [hz q]
  refine congrArg (fun y : EReal => x (ix2 p q) - rmax x p - y) ?_
  -- the logarithm of the row's sum of exponentials, spread over the classes
  refine (broadcastTo_a1_ab_apply _ hb p q).trans ?_
  refine congrArg Ideal.log ?_
  refine (shapeCast_a_a1_apply _ hc p 0).trans ?_
  refine (rowSum_apply _ _ h hφ haccS p).trans ?_
  exact Finset.sum_congr rfl fun r _ => congrArg Ideal.exp (hz r)

/-- The body's stored tile at (p, q): the shifted log-softmax of the biased scores of row p. -/
theorem pay_apply (x0 : Vec Ideal S4000x16 .f32) (x1 : Vec Ideal S1x16 .f32) (p : Fin 4000) (q : Fin 16) :
    k2_pay1 (F := Ideal) x0 x1 (ix2 p q)
      = (tscore x0 x1 p q - tmax x0 x1 p)
        - Ideal.log (∑ r : Fin 16, Ideal.exp (tscore x0 x1 p r - tmax x0 x1 p)) := by
  -- the biased tile at (p, r)
  have hx : ∀ r : Fin 16, (addf (shapeCast S4000x16 x0 shapeCasts_S4000x16_S4000x16)
      (broadcastTo S4000x16 (shapeCast S1x16 x1 shapeCasts_S1x16_S1x16) broadcasts_S1x16_S4000x16)
        : FVec Ideal S4000x16 .f32) (ix2 p r) = tscore x0 x1 p r := by
    intro r
    rw [shapeCast_self, shapeCast_self]
    exact congrArg (fun y : EReal => x0 (ix2 p r) + y) (broadcastTo_1b_ab_apply x1 _ p r)
  have hm : rmax (addf (shapeCast S4000x16 x0 shapeCasts_S4000x16_S4000x16)
      (broadcastTo S4000x16 (shapeCast S1x16 x1 shapeCasts_S1x16_S1x16) broadcasts_S1x16_S4000x16)) p = tmax x0 x1 p :=
    congrArg (fun f : Fin 16 → EReal => (Finset.univ : Finset (Fin 16)).fold max (Ideal.ofBits .f32 0xFF800000#32) f)
      (funext hx)
  unfold k2_pay1
  refine (logSoftmax_tile_apply _ _ _ _ _ _ _ p q).trans ?_
  rw [hm, hx q]
  refine congrArg (fun y : EReal => tscore x0 x1 p q - tmax x0 x1 p - Ideal.log y) ?_
  exact Finset.sum_congr rfl fun r _ => by rw [hx r]

/-! ## A tile is the specification's function read through the tile's rows -/

/-- If row p of the tile is row (j 0) of the matrix A, the bias tile is the bias row b, and q is the column of j, the
    tile's entry (p, q) is the specification's log-softmax of A and b at j. -/
theorem tile_eq_spec (A : Cert.Spec.Mat 100000 16) (b : Cert.Spec.Mat 1 16)
    (x0 : Vec Ideal S4000x16 .f32) (x1 : Vec Ideal S1x16 .f32) (p : Fin 4000) (q : Fin 16)
    (j : (⟨2, ![100000, 16]⟩ : Shape).Idx)
    (h0 : ∀ r : Fin 16, x0 (ix2 p r) = A (ix2 (j 0) r)) (h1 : ∀ r : Fin 16, x1 (ix2 (0 : Fin 1) r) = b (ix2 0 r))
    (hq : j 1 = q) :
    (tscore x0 x1 p q - tmax x0 x1 p) - Ideal.log (∑ r : Fin 16, Ideal.exp (tscore x0 x1 p r - tmax x0 x1 p))
      = Cert.Spec.logSoftmax A b j := by
  have hs : ∀ r : Fin 16, tscore x0 x1 p r = Cert.Spec.score A b (j 0) r := fun r => by
    unfold tscore Cert.Spec.score; rw [h0 r, h1 r]
  have hm : tmax x0 x1 p = Cert.Spec.rowMax A b (j 0) :=
    congrArg (fun f : Fin 16 → EReal => (Finset.univ : Finset (Fin 16)).fold max (Ideal.ofBits .f32 0xFF800000#32) f)
      (funext hs)
  unfold Cert.Spec.logSoftmax
  rw [hm, hs q, hq]
  refine congrArg (fun y : EReal => Cert.Spec.score A b (j 0) q - Cert.Spec.rowMax A b (j 0) - Ideal.log y) ?_
  exact Finset.sum_congr rfl fun r _ => by rw [hs r]

/-! ## From the tiles to the array -/

section Blocks

variable (V : (c : Dev nD) → (b : Ref sig .tc) → Buf (Elt Ideal) ((c : Thread nD τ).loc b))

/-- The offsets of a load or store of a whole tile are zero on both axes. -/
theorem zero_offsets : (![0, 0] : Fin 2 → Nat) = fun _ => 0 := funext fun a => by fin_cases a <;> rfl

/-- The block indices over the grid: at point t the aggregated matrix and the output are at row-tile t, the bias row at
    its one block. -/
theorem block_indices : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The tile that grid point t writes to the output is tile t (rows 4000·t … 4000·t + 3999) of the specification's
    log-softmax of the aggregated matrix and the bias row as they stand when the stage starts. -/
theorem flushed_eq (c : Dev nD) (t : Fin cfg2.N) :
    (dat2 (F := Ideal) V c).flushed 2 t
      = ((cfg2.win 2).blk t).view.read (Elt Ideal) (Cert.Spec.logSoftmax (V c main_v63) (V c main_v34)) := by
  show (cfg2.win 2).cut (grid2.coords t) ((dat2 V c).after 2 t) = _
  rw [after2_2]
  unfold out2_2
  rw [View.canon_unit_zero zero_offsets]
  simp only [View.ld_unit_zero (S := S4000x16) zero_offsets, View.ld_unit_zero (S := S1x16) zero_offsets]
  obtain ⟨e0, e1, e2, e3, e4, e5⟩ := block_indices t
  funext y
  obtain ⟨p, q, rfl⟩ : ∃ (p : Fin 4000) (q : Fin 16), y = ix2 p q := ⟨y 0, y 1, eq_ix2 y⟩
  show k2_pay1 (iblk2 V c 0 t) (iblk2 V c 1 t) (ix2 p q)
    = Cert.Spec.logSoftmax (V c main_v63) (V c main_v34) (((cfg2.win 2).blk t).view.emb (ix2 p q))
  refine (pay_apply (iblk2 V c 0 t) (iblk2 V c 1 t) p q).trans ?_
  refine tile_eq_spec (V c main_v63) (V c main_v34) _ _ p q _ (fun r => ?_) (fun r => ?_) ?_
  · -- row p of the aggregated tile is row 4000·t + p of the aggregated matrix
    show V c main_v63 (((cfg2.win 0).blk t).view.emb (ix2 p r))
      = V c main_v63 (ix2 ((((cfg2.win 2).blk t).view.emb (ix2 p q)) 0) r)
    refine congrArg (V c main_v63) ?_
    funext a; apply Fin.ext
    match a with
    | ⟨0, _⟩ => show win2_0.index t (0 : Fin 2) * 4000 + 1 * p.val = win2_2.index t (0 : Fin 2) * 4000 + 1 * p.val; omega
    | ⟨1, _⟩ => show win2_0.index t (1 : Fin 2) * 16 + 1 * r.val = r.val; omega
  · -- the bias tile is the whole bias row
    show V c main_v34 (((cfg2.win 1).blk t).view.emb (ix2 (0 : Fin 1) r)) = V c main_v34 (ix2 0 r)
    refine congrArg (V c main_v34) ?_
    funext a; apply Fin.ext
    match a with
    | ⟨0, _⟩ => show win2_1.index t (0 : Fin 2) * 1 + 1 * 0 = 0; omega
    | ⟨1, _⟩ => show win2_1.index t (1 : Fin 2) * 16 + 1 * r.val = r.val; omega
  · -- the column axis is one block
    apply Fin.ext
    show win2_2.index t (1 : Fin 2) * 16 + 1 * q.val = q.val
    omega

/-- An index of the output is in point t's tile iff each coordinate is in the tile's range on its axis. -/
theorem mem_blk (t : Fin cfg2.N) (i : S100000x16.Idx) :
    i ∈ ((cfg2.win 2).blk t).view.set ↔ ∀ a : Fin 2, win2_2.index t a * S4000x16.size a ≤ (i a).val
      ∧ (i a).val < win2_2.index t a * S4000x16.size a + S4000x16.size a := by
  show i ∈ ((View.whole main_v64).slice (win2_2.rect t)).set ↔ _
  rw [View.set_slice_whole, Rect.mem_set_unit]
  exact Iff.rfl

/-- The 25 tiles of 4000 rows cover the 100000 rows: row r lies in tile r / 4000. -/
theorem cover (i : S100000x16.Idx) : ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 25 := N_2
  let t : Fin cfg2.N := ⟨(i 0).val / 4000, by rw [hN]; omega⟩
  have ht : t.val = (i 0).val / 4000 := rfl
  obtain ⟨e0, e1, e2, e3, e4, e5⟩ := block_indices t
  refine ⟨t, flush2_2 t, ?_⟩
  rw [mem_blk]
  intro a
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 16 ≤ (i 1).val ∧ (i 1).val < win2_2.index t (1 : Fin 2) * 16 + 16; omega

/-- The output array after the stage is the specification's log-softmax of the aggregated matrix and the bias row as
    they stand when the stage starts. -/
theorem final (c : Dev nD) :
    (Gen.dat2 (F := Ideal) V c).arrAt 2 cfg2.N = Cert.Spec.logSoftmax (V c main_v63) (V c main_v34) :=
  (dat2 (F := Ideal) V c).arrAt_eq_of_cover 2 (Cert.Spec.logSoftmax (V c main_v63) (V c main_v34))
    (fun t _ => flushed_eq V c t) cover

end Blocks

end Cert.KernelIdeal.Region2

end
-- ==== Proof.HostFold.lean ====
/-
  The tiled program's buffers, boundary by boundary, as functions of the six arguments.

  The program is five stretches of array operations around three dense stages. At each boundary between them this
  module says what the buffers that are read later hold, as a function of the arguments: the node features X, the edge
  list E, and the two layers' weights and biases W1, b1, W2, b2. The functions are the ones the plain program's
  operations compute, one per operation (their names carry that program's numbering).

  Two kinds of fact. A buffer that a stretch computes: the stretch is run over an ARBITRARY entry valuation that holds
  the values it reads, so that nothing before the stretch is looked at again; both sides are then opened down to those
  values, which are replaced by variables, and the two terms are the same. A buffer that a stretch (or a dense stage)
  does not write keeps its contents. A dense stage's output is given by the stage's own theorem, its inputs by the
  boundary before it.
-/
import proofs.«135146_j54477365182993_2_alg».proof.Proof.Gen.KernelIdeal.Frame
import proofs.«135146_j54477365182993_2_alg».proof.Proof.RefRead
import proofs.«135146_j54477365182993_2_alg».proof.Proof.RefValue
import proofs.«135146_j54477365182993_2_alg».proof.Proof.Spec
import proofs.«135146_j54477365182993_2_alg».proof.Proof.Region0
import proofs.«135146_j54477365182993_2_alg».proof.Proof.Region1
import proofs.«135146_j54477365182993_2_alg».proof.Proof.Region2
import Idealize.ShloMosaic.Lib.StableHlo.Run
import Idealize.ShloMosaic.Lib.ValueLayout
import Idealize.ShloMosaic.Lib.ValueIdx

set_option maxRecDepth 16384

noncomputable section

namespace Cert.KernelIdeal.HostFold

open Idealize.ShloMosaic Idealize.ShloMosaic.TcCoe Idealize.ShloMosaic.Tactic Idealize.SL.Sem
open Idealize.ShloMosaic.StableHlo Idealize.ShloMosaic.ValueIdx
open Cert.KernelIdeal Cert.KernelIdeal.Gen
open Cert.ReferenceIdeal.Read Cert.ReferenceIdeal.RefValue

variable (m : (ℓ : Loc nD τ sig) → Buf (Elt Ideal) ℓ) (ρ : Dev nD → PrngReg) (c : Dev nD)

/-- The six arguments as the program is launched: the node features, the edge list, and the two layers' weights and
    biases. -/
abbrev aX : (⟨S100000x256, .f32⟩ : BufTy).Contents (Elt Ideal) := m ((c : Thread nD τ).loc main_arg0)
abbrev aE : (⟨S2x1600000, .i32⟩ : BufTy).Contents (Elt Ideal) := m ((c : Thread nD τ).loc main_arg1)
abbrev aW1 : (⟨S256x128, .f32⟩ : BufTy).Contents (Elt Ideal) := m ((c : Thread nD τ).loc main_arg2)
abbrev aB1 : (⟨S128, .f32⟩ : BufTy).Contents (Elt Ideal) := m ((c : Thread nD τ).loc main_arg3)
abbrev aW2 : (⟨S128x16, .f32⟩ : BufTy).Contents (Elt Ideal) := m ((c : Thread nD τ).loc main_arg4)
abbrev aB2 : (⟨S16, .f32⟩ : BufTy).Contents (Elt Ideal) := m ((c : Thread nD τ).loc main_arg5)

/-- A buffer that none of a stretch's operations writes holds after the stretch what it held before. -/
local macro "keeps " ops:ident : tactic => `(tactic| (
  refine StableHlo.after_of_forall_not_mem _ _ (List.forall_iff_forall_mem.mp ?_)
  simp only [$ops:ident, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Boundary 1: after the first stretch

The first stretch builds, from the edge list alone, the source and destination lists with a self-loop appended for every
node, the in-degrees, and the three operands of the guarded inverse square root. It writes none of the arguments. -/

theorem b1_v5 : W1 m ρ c (Proc.devRef .tc main_v5) = val_main_v5 (F := Ideal) (aE m c) := by
  show StableHlo.after hostOps0 (W0 m ρ c) _ = _
  after_results
  rfl

theorem b1_v6 : W1 m ρ c (Proc.devRef .tc main_v6) = val_main_v6 (F := Ideal) (aE m c) := by
  show StableHlo.after hostOps0 (W0 m ρ c) _ = _
  after_results
  rfl

theorem b1_v12 : W1 m ρ c (Proc.devRef .tc main_v12) = val_main_v12 (F := Ideal) (aE m c) := by
  show StableHlo.after hostOps0 (W0 m ρ c) _ = _
  after_results
  rfl

theorem b1_v13 : W1 m ρ c (Proc.devRef .tc main_v13) = val_main_v13 (F := Ideal) (aE m c) := by
  show StableHlo.after hostOps0 (W0 m ρ c) _ = _
  after_results
  rfl

theorem b1_v14 : W1 m ρ c (Proc.devRef .tc main_v14) = val_main_v14 (F := Ideal) := by
  show StableHlo.after hostOps0 (W0 m ρ c) _ = _
  after_results
  rfl

theorem b1_arg0 : W1 m ρ c (Proc.devRef .tc main_arg0) = aX m c :=
  (show StableHlo.after hostOps0 (W0 m ρ c) _ = W0 m ρ c _ by keeps hostOps0).trans rfl
theorem b1_arg2 : W1 m ρ c (Proc.devRef .tc main_arg2) = aW1 m c :=
  (show StableHlo.after hostOps0 (W0 m ρ c) _ = W0 m ρ c _ by keeps hostOps0).trans rfl
theorem b1_arg3 : W1 m ρ c (Proc.devRef .tc main_arg3) = aB1 m c :=
  (show StableHlo.after hostOps0 (W0 m ρ c) _ = W0 m ρ c _ by keeps hostOps0).trans rfl
theorem b1_arg4 : W1 m ρ c (Proc.devRef .tc main_arg4) = aW2 m c :=
  (show StableHlo.after hostOps0 (W0 m ρ c) _ = W0 m ρ c _ by keeps hostOps0).trans rfl
theorem b1_arg5 : W1 m ρ c (Proc.devRef .tc main_arg5) = aB2 m c :=
  (show StableHlo.after hostOps0 (W0 m ρ c) _ = W0 m ρ c _ by keeps hostOps0).trans rfl

/-! ## Boundary 2: after the guard

One operation: where a node's degree is positive its inverse square root, elsewhere zero. -/

/-- The guard's one operation over arbitrary operands: a buffer read or written at its own type is unchanged. -/
theorem where_eq (a : (⟨Cert.ReferenceIdeal.S100000, .i1⟩ : BufTy).Contents (Elt Ideal))
    (b d : (⟨Cert.ReferenceIdeal.S100000, .f32⟩ : BufTy).Contents (Elt Ideal)) :
    (TRef.of main_v15 : TRef sig ⟨S100000, .f32⟩).toBuf
      (select ((TRef.of main_v12 : TRef sig ⟨S100000, .i1⟩).ofBuf a) ((TRef.of main_v13 : TRef sig ⟨S100000, .f32⟩).ofBuf b)
        ((TRef.of main_v14 : TRef sig ⟨S100000, .f32⟩).ofBuf d))
      = (select a b d : (⟨Cert.ReferenceIdeal.S100000, .f32⟩ : BufTy).Contents (Elt Ideal)) := rfl

theorem b2_v15 : W2 m ρ c (Proc.devRef .tc main_v15) = val_main_v15 (F := Ideal) (aE m c) := by
  show StableHlo.after hostOps0_1 (W1 m ρ c) _ = _
  have h0 := b1_v12 m ρ c; have h1 := b1_v13 m ρ c; have h2 := b1_v14 m ρ c
  generalize W1 m ρ c = Vv at h0 h1 h2 ⊢
  after_results
  rw [h0, h1, h2]
  exact where_eq _ _ _

theorem b2_v5 : W2 m ρ c (Proc.devRef .tc main_v5) = val_main_v5 (F := Ideal) (aE m c) :=
  (show StableHlo.after hostOps0_1 (W1 m ρ c) _ = W1 m ρ c _ by keeps hostOps0_1).trans (b1_v5 m ρ c)
theorem b2_v6 : W2 m ρ c (Proc.devRef .tc main_v6) = val_main_v6 (F := Ideal) (aE m c) :=
  (show StableHlo.after hostOps0_1 (W1 m ρ c) _ = W1 m ρ c _ by keeps hostOps0_1).trans (b1_v6 m ρ c)
theorem b2_arg0 : W2 m ρ c (Proc.devRef .tc main_arg0) = aX m c :=
  (show StableHlo.after hostOps0_1 (W1 m ρ c) _ = W1 m ρ c _ by keeps hostOps0_1).trans (b1_arg0 m ρ c)
theorem b2_arg2 : W2 m ρ c (Proc.devRef .tc main_arg2) = aW1 m c :=
  (show StableHlo.after hostOps0_1 (W1 m ρ c) _ = W1 m ρ c _ by keeps hostOps0_1).trans (b1_arg2 m ρ c)
theorem b2_arg3 : W2 m ρ c (Proc.devRef .tc main_arg3) = aB1 m c :=
  (show StableHlo.after hostOps0_1 (W1 m ρ c) _ = W1 m ρ c _ by keeps hostOps0_1).trans (b1_arg3 m ρ c)
theorem b2_arg4 : W2 m ρ c (Proc.devRef .tc main_arg4) = aW2 m c :=
  (show StableHlo.after hostOps0_1 (W1 m ρ c) _ = W1 m ρ c _ by keeps hostOps0_1).trans (b1_arg4 m ρ c)
theorem b2_arg5 : W2 m ρ c (Proc.devRef .tc main_arg5) = aB2 m c :=
  (show StableHlo.after hostOps0_1 (W1 m ρ c) _ = W1 m ρ c _ by keeps hostOps0_1).trans (b1_arg5 m ρ c)

/-! ## Boundary 3: the entry of the first dense stage

The third stretch gathers the guarded inverse square roots at the two ends of every edge and multiplies them (the
symmetric normalisation, one weight per edge), and lays the weights and biases out as the dense stages read them: the
weight matrices unchanged (at extended reals a change of format is the identity), each bias as a matrix of one row.
Each result is obtained by running the stretch over an arbitrary entry valuation that holds the values it reads. -/

theorem b3_v30 : W3 m ρ c (Proc.devRef .tc main_v30) = val_main_v30 (F := Ideal) (aE m c) := by
  show StableHlo.after hostOps0_2 (W2 m ρ c) _ = _
  have h0 := b2_v15 m ρ c; have h1 := b2_v5 m ρ c; have h2 := b2_v6 m ρ c
  generalize W2 m ρ c = Vv at h0 h1 h2 ⊢
  generalize aE m c = E at h0 h1 h2 ⊢
  after_results_simp
  rw [h0, h1, h2]
  unfold val_main_v30 val_main_v22 val_main_v29 val_main_v21 val_main_v28 val_main_v20 val_main_v27 val_main_v17
    val_main_v19 val_main_v24 val_main_v26 val_main_v16 val_main_v18 val_main_v23 val_main_v25 val_main_c val_main_c_3
    val_main_c_4 val_main_c_5
  generalize val_main_v15 (F := Ideal) E = a
  generalize val_main_v5 (F := Ideal) E = b
  generalize val_main_v6 (F := Ideal) E = d
  rfl

theorem b3_v31 : W3 m ρ c (Proc.devRef .tc main_v31) = aW1 m c := by
  show StableHlo.after hostOps0_2 (W2 m ρ c) _ = _
  have h0 := b2_arg2 m ρ c
  generalize W2 m ρ c = Vv at h0 ⊢
  after_results_simp
  rw [h0]
  generalize aW1 m c = w
  rfl

theorem b3_v32 : W3 m ρ c (Proc.devRef .tc main_v32) = aW2 m c := by
  show StableHlo.after hostOps0_2 (W2 m ρ c) _ = _
  have h0 := b2_arg4 m ρ c
  generalize W2 m ρ c = Vv at h0 ⊢
  after_results_simp
  rw [h0]
  generalize aW2 m c = w
  rfl

theorem b3_v33 : W3 m ρ c (Proc.devRef .tc main_v33) = asRow (aB1 m c) := by
  show StableHlo.after hostOps0_2 (W2 m ρ c) _ = _
  have h0 := b2_arg3 m ρ c
  generalize W2 m ρ c = Vv at h0 ⊢
  after_results_simp
  rw [h0]
  generalize aB1 m c = v
  funext j
  obtain ⟨u, k, rfl⟩ : ∃ (u : Fin 1) (k : Fin 128), j = ix2 u k := ⟨j 0, j 1, eq_ix2 j⟩
  exact shapeCast_a_1a_apply v _ u k

theorem b3_v34 : W3 m ρ c (Proc.devRef .tc main_v34) = asRow (aB2 m c) := by
  show StableHlo.after hostOps0_2 (W2 m ρ c) _ = _
  have h0 := b2_arg5 m ρ c
  generalize W2 m ρ c = Vv at h0 ⊢
  after_results_simp
  rw [h0]
  generalize aB2 m c = v
  funext j
  obtain ⟨u, k, rfl⟩ : ∃ (u : Fin 1) (k : Fin 16), j = ix2 u k := ⟨j 0, j 1, eq_ix2 j⟩
  exact shapeCast_a_1a_apply v _ u k

theorem b3_v5 : W3 m ρ c (Proc.devRef .tc main_v5) = val_main_v5 (F := Ideal) (aE m c) :=
  (show StableHlo.after hostOps0_2 (W2 m ρ c) _ = W2 m ρ c _ by keeps hostOps0_2).trans (b2_v5 m ρ c)
theorem b3_v6 : W3 m ρ c (Proc.devRef .tc main_v6) = val_main_v6 (F := Ideal) (aE m c) :=
  (show StableHlo.after hostOps0_2 (W2 m ρ c) _ = W2 m ρ c _ by keeps hostOps0_2).trans (b2_v6 m ρ c)
theorem b3_arg0 : W3 m ρ c (Proc.devRef .tc main_arg0) = aX m c :=
  (show StableHlo.after hostOps0_2 (W2 m ρ c) _ = W2 m ρ c _ by keeps hostOps0_2).trans (b2_arg0 m ρ c)

/-! ## Boundary 4: after the first dense stage

The stage writes its output array and nothing else; by the first stage's theorem the array is the feature transform of
the features and the first weight matrix, which is what the reference's product writes. -/

theorem b4_v35 : W4 m ρ c (Proc.devRef .tc main_v35) = val_main_v31 (F := Ideal) (aX m c) (aW1 m c) := by
  refine (W4_arr m ρ c 2).trans ?_
  refine (Cert.KernelIdeal.Region0.final (V3 m ρ) c).trans ?_
  show Cert.Spec.linear (W3 m ρ c (Proc.devRef .tc main_arg0)) (W3 m ρ c (Proc.devRef .tc main_v31)) = _
  rw [b3_arg0, b3_v31]
  exact (transform_eq (aX m c) (aW1 m c)).symm

theorem b4_v5 : W4 m ρ c (Proc.devRef .tc main_v5) = val_main_v5 (F := Ideal) (aE m c) :=
  (W4_of_ne m ρ c main_v5 (by decide)).trans (b3_v5 m ρ c)
theorem b4_v6 : W4 m ρ c (Proc.devRef .tc main_v6) = val_main_v6 (F := Ideal) (aE m c) :=
  (W4_of_ne m ρ c main_v6 (by decide)).trans (b3_v6 m ρ c)
theorem b4_v30 : W4 m ρ c (Proc.devRef .tc main_v30) = val_main_v30 (F := Ideal) (aE m c) :=
  (W4_of_ne m ρ c main_v30 (by decide)).trans (b3_v30 m ρ c)
theorem b4_v32 : W4 m ρ c (Proc.devRef .tc main_v32) = aW2 m c :=
  (W4_of_ne m ρ c main_v32 (by decide)).trans (b3_v32 m ρ c)
theorem b4_v33 : W4 m ρ c (Proc.devRef .tc main_v33) = asRow (aB1 m c) :=
  (W4_of_ne m ρ c main_v33 (by decide)).trans (b3_v33 m ρ c)
theorem b4_v34 : W4 m ρ c (Proc.devRef .tc main_v34) = asRow (aB2 m c) :=
  (W4_of_ne m ρ c main_v34 (by decide)).trans (b3_v34 m ρ c)

/-! ## Boundary 5: the entry of the second dense stage

The stretch gathers the transformed features at every edge's source, scales each row by the edge's weight and adds the
rows up at the edge's destination: the first layer's aggregation. -/

theorem b5_v49 : W5 m ρ c (Proc.devRef .tc main_v49)
    = val_main_v44 (F := Ideal) (aX m c) (aE m c) (aW1 m c) := by
  show StableHlo.after hostOps1 (W4 m ρ c) _ = _
  have h0 := b4_v35 m ρ c; have h1 := b4_v5 m ρ c; have h2 := b4_v6 m ρ c; have h3 := b4_v30 m ρ c
  generalize W4 m ρ c = Vv at h0 h1 h2 h3 ⊢
  generalize aE m c = E at h0 h1 h2 h3 ⊢
  generalize aX m c = X at h0 ⊢
  generalize aW1 m c = W at h0 ⊢
  after_results_simp
  rw [h0, h1, h2, h3]
  unfold val_main_v44 val_main_v42 val_main_v43 val_main_v41 val_main_v38 val_main_v40 val_main_v39 val_main_v37
    val_main_v36 val_main_v33 val_main_v35 val_main_v32 val_main_v34 val_main_c_6 val_main_c_7 val_main_cst_8
  generalize val_main_v31 (F := Ideal) X W = a
  generalize val_main_v5 (F := Ideal) E = b
  generalize val_main_v6 (F := Ideal) E = d
  generalize val_main_v30 (F := Ideal) E = e
  rfl

theorem b5_v5 : W5 m ρ c (Proc.devRef .tc main_v5) = val_main_v5 (F := Ideal) (aE m c) :=
  (show StableHlo.after hostOps1 (W4 m ρ c) _ = W4 m ρ c _ by keeps hostOps1).trans (b4_v5 m ρ c)
theorem b5_v6 : W5 m ρ c (Proc.devRef .tc main_v6) = val_main_v6 (F := Ideal) (aE m c) :=
  (show StableHlo.after hostOps1 (W4 m ρ c) _ = W4 m ρ c _ by keeps hostOps1).trans (b4_v6 m ρ c)
theorem b5_v30 : W5 m ρ c (Proc.devRef .tc main_v30) = val_main_v30 (F := Ideal) (aE m c) :=
  (show StableHlo.after hostOps1 (W4 m ρ c) _ = W4 m ρ c _ by keeps hostOps1).trans (b4_v30 m ρ c)
theorem b5_v32 : W5 m ρ c (Proc.devRef .tc main_v32) = aW2 m c :=
  (show StableHlo.after hostOps1 (W4 m ρ c) _ = W4 m ρ c _ by keeps hostOps1).trans (b4_v32 m ρ c)
theorem b5_v33 : W5 m ρ c (Proc.devRef .tc main_v33) = asRow (aB1 m c) :=
  (show StableHlo.after hostOps1 (W4 m ρ c) _ = W4 m ρ c _ by keeps hostOps1).trans (b4_v33 m ρ c)
theorem b5_v34 : W5 m ρ c (Proc.devRef .tc main_v34) = asRow (aB2 m c) :=
  (show StableHlo.after hostOps1 (W4 m ρ c) _ = W4 m ρ c _ by keeps hostOps1).trans (b4_v34 m ρ c)

/-! ## Boundary 6: after the second dense stage

By the second stage's theorem its output array is bias, rectifier and second transform of the aggregated features,
which is what the reference's second product writes. -/

theorem b6_v50 : W6 m ρ c (Proc.devRef .tc main_v50)
    = val_main_v76 (F := Ideal) (aX m c) (aE m c) (aW1 m c) (aB1 m c) (aW2 m c) := by
  refine (W6_arr m ρ c 3).trans ?_
  refine (Cert.KernelIdeal.Region1.final (V5 m ρ) c).trans ?_
  show Cert.Spec.hidden (W5 m ρ c (Proc.devRef .tc main_v49)) (W5 m ρ c (Proc.devRef .tc main_v33))
    (W5 m ρ c (Proc.devRef .tc main_v32)) = _
  rw [b5_v49, b5_v33, b5_v32]
  exact (hidden_eq (aX m c) (aE m c) (aW1 m c) (aB1 m c) (aW2 m c)).symm

theorem b6_v5 : W6 m ρ c (Proc.devRef .tc main_v5) = val_main_v5 (F := Ideal) (aE m c) :=
  (W6_of_ne m ρ c main_v5 (by decide)).trans (b5_v5 m ρ c)
theorem b6_v6 : W6 m ρ c (Proc.devRef .tc main_v6) = val_main_v6 (F := Ideal) (aE m c) :=
  (W6_of_ne m ρ c main_v6 (by decide)).trans (b5_v6 m ρ c)
theorem b6_v30 : W6 m ρ c (Proc.devRef .tc main_v30) = val_main_v30 (F := Ideal) (aE m c) :=
  (W6_of_ne m ρ c main_v30 (by decide)).trans (b5_v30 m ρ c)
theorem b6_v34 : W6 m ρ c (Proc.devRef .tc main_v34) = asRow (aB2 m c) :=
  (W6_of_ne m ρ c main_v34 (by decide)).trans (b5_v34 m ρ c)

/-! ## Boundary 7: the entry of the third dense stage

The second layer's aggregation. The reference builds the edge lists with self-loops and the normalisation a second time
for its second layer; they are the same functions of the edge list as the first time. -/

theorem second_src (E : (⟨Cert.ReferenceIdeal.S2x1600000, .i32⟩ : BufTy).Contents (Elt Ideal)) :
    val_main_v50 (F := Ideal) E = val_main_v5 E := by
  simp only [val_main_v50, val_main_v5, val_main_v49, val_main_v4]

theorem second_dst (E : (⟨Cert.ReferenceIdeal.S2x1600000, .i32⟩ : BufTy).Contents (Elt Ideal)) :
    val_main_v51 (F := Ideal) E = val_main_v6 E := by
  simp only [val_main_v51, val_main_v6, val_main_v49, val_main_v4]

theorem second_guard (E : (⟨Cert.ReferenceIdeal.S2x1600000, .i32⟩ : BufTy).Contents (Elt Ideal)) :
    val_main_v60 (F := Ideal) E = val_main_v15 E := by
  simp only [val_main_v60, val_main_v15, val_main_v57, val_main_v12, val_main_v58, val_main_v13, val_main_v59,
    val_main_v14, val_main_v55, val_main_v10, val_main_v56, val_main_v11, val_main_v52, val_main_v7, val_main_v53,
    val_main_v8, val_main_v54, val_main_v9, val_main_cst_9, val_main_cst, val_main_cst_10, val_main_cst_0,
    val_main_cst_11, val_main_cst_1, val_main_cst_12, val_main_cst_2, second_dst]

theorem second_norm (E : (⟨Cert.ReferenceIdeal.S2x1600000, .i32⟩ : BufTy).Contents (Elt Ideal)) :
    val_main_v75 (F := Ideal) E = val_main_v30 E := by
  simp only [val_main_v75, val_main_v30, val_main_v67, val_main_v22, val_main_v74, val_main_v29, val_main_v66,
    val_main_v21, val_main_v73, val_main_v28, val_main_v65, val_main_v20, val_main_v72, val_main_v27, val_main_v62,
    val_main_v17, val_main_v64, val_main_v19, val_main_v69, val_main_v24, val_main_v71, val_main_v26, val_main_v61,
    val_main_v16, val_main_v63, val_main_v18, val_main_v68, val_main_v23, val_main_v70, val_main_v25, val_main_c_13,
    val_main_c, val_main_c_14, val_main_c_3, val_main_c_15, val_main_c_4, val_main_c_16, val_main_c_5, second_src,
    second_dst, second_guard]

theorem b7_v63 : W7 m ρ c (Proc.devRef .tc main_v63)
    = val_main_v89 (F := Ideal) (aX m c) (aE m c) (aW1 m c) (aB1 m c) (aW2 m c) := by
  show StableHlo.after hostOps2 (W6 m ρ c) _ = _
  have h0 := b6_v50 m ρ c; have h1 := b6_v5 m ρ c; have h2 := b6_v6 m ρ c; have h3 := b6_v30 m ρ c
  generalize W6 m ρ c = Vv at h0 h1 h2 h3 ⊢
  generalize aE m c = E at h0 h1 h2 h3 ⊢
  generalize aX m c = X at h0 ⊢
  generalize aW1 m c = W at h0 ⊢
  generalize aB1 m c = B at h0 ⊢
  generalize aW2 m c = W' at h0 ⊢
  after_results_simp
  rw [h0, h1, h2, h3]
  unfold val_main_v89 val_main_v87 val_main_v88 val_main_v86 val_main_v83 val_main_v85 val_main_v84 val_main_v82
    val_main_v81 val_main_v78 val_main_v80 val_main_v77 val_main_v79 val_main_c_17 val_main_c_18 val_main_cst_19
  rw [second_src, second_dst, second_norm]
  generalize val_main_v76 (F := Ideal) X E W B W' = a
  generalize val_main_v5 (F := Ideal) E = b
  generalize val_main_v6 (F := Ideal) E = d
  generalize val_main_v30 (F := Ideal) E = e
  rfl

theorem b7_v34 : W7 m ρ c (Proc.devRef .tc main_v34) = asRow (aB2 m c) :=
  (show StableHlo.after hostOps2 (W6 m ρ c) _ = W6 m ρ c _ by keeps hostOps2).trans (b6_v34 m ρ c)

/-! ## Boundary 8: the result

By the third stage's theorem the result array is the log-softmax of the second aggregation and the second bias, which is
what the reference's last operation writes. -/

theorem result : W8 m ρ c (Proc.devRef .tc main_v64)
    = val_main_v93 (F := Ideal) (aX m c) (aE m c) (aW1 m c) (aB1 m c) (aW2 m c) (aB2 m c) := by
  refine (W8_arr m ρ c 2).trans ?_
  refine (Cert.KernelIdeal.Region2.final (V7 m ρ) c).trans ?_
  show Cert.Spec.logSoftmax (W7 m ρ c (Proc.devRef .tc main_v63)) (W7 m ρ c (Proc.devRef .tc main_v34)) = _
  rw [b7_v63, b7_v34]
  exact (logSoftmax_eq (aX m c) (aE m c) (aW1 m c) (aB1 m c) (aW2 m c) (aB2 m c)).symm

end Cert.KernelIdeal.HostFold

end
-- ==== Proof.RefFold.lean ====
/-
  The reference program's run, read stage by stage.

  The reference is a straight line of 132 host operations. Every weakly fair execution of it terminates with each
  buffer at the fold of the operations' results over the launch contents. That fold is read here in twelve
  stretches, cut where a later stretch needs only a handful of the earlier values: the edge lists with their
  self-loops; the degrees, their comparison with zero and their inverse square roots; the selection between them;
  the normalisation of every edge; the first matrix product; its rows gathered, scaled and added up at the
  destinations; bias and rectifier; the same normalisation computed once more from a second iota (two stretches); the
  second matrix product; its propagation; and the log-softmax. At each cut the buffers a later stretch reads are
  stated as the reference's own stage functions of the six arguments: a stretch's own results by running its
  operations over an arbitrary entry valuation and rewriting the entry values it reads; a buffer that a stretch does
  not write keeps its contents. Composed, the result buffer ends at the last stage function of the arguments, and
  the argument arrays, which no operation writes, end as launched.
-/
import proofs.«135146_j54477365182993_2_alg».proof.Proof.RefRead
import Idealize.ShloMosaic.Lib.StableHlo.Run
import Idealize.ShloMosaic.Lib.Pipeline.Frame

set_option maxRecDepth 16384

noncomputable section

namespace Cert.ReferenceIdeal.RefFold

open Idealize.ShloMosaic Idealize.ShloMosaic.TcCoe Idealize.SL.Sem Idealize.ShloMosaic.StableHlo
open Cert.ReferenceIdeal Cert.ReferenceIdeal.Gen Cert.ReferenceIdeal.Value Cert.ReferenceIdeal.Read

/-! ## The stretches -/

section Lists
variable {F : FTy → Type} [FloatOps F]

/-- Operations 1 to 5 of @main. -/
abbrev opsA : List (HloOp τ sig (Elt F)) :=
  [ unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    reshape main_v0 main_v1 rfl shapeCasts_S1x1600000_S1600000,
    unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    reshape main_v2 main_v3 rfl shapeCasts_S1x1600000_S1600000,
    nullary main_v4 (iotaInDim S100000 32 0) ]
/-- Operations 6 to 19 of @main. -/
abbrev opsB : List (HloOp τ sig (Elt F)) :=
  [ binary main_v1 main_v4 main_v5 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v4 main_v6 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst (constant S_ .f32 0x3F800000#32),
    unary main_cst main_v7 (broadcastInDim S1700000 ![] bcast_S_S1700000 : (⟨S_, .f32⟩ : BufTy).Contents (Elt F) → (⟨S1700000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1700000x1 ![0] bcast_S1700000_S1700000x1_0 : (⟨S1700000, .i32⟩ : BufTy).Contents (Elt F) → (⟨S1700000x1, .i32⟩ : BufTy).Contents (Elt F)),
    ternary main_v8 main_v9 main_v7 main_v10 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    unary main_cst_2 main_v14 (broadcastInDim S100000 ![] bcast_S_S100000 : (⟨S_, .f32⟩ : BufTy).Contents (Elt F) → (⟨S100000, .f32⟩ : BufTy).Contents (Elt F)) ]
/-- Operations 20 to 20 of @main. -/
abbrev opsC : List (HloOp τ sig (Elt F)) :=
  [ TRef.ternary (TRef.of (T := ⟨S100000, .i1⟩) main_v12) (TRef.of (T := ⟨S100000, .f32⟩) main_v13) (TRef.of (T := ⟨S100000, .f32⟩) main_v14) (TRef.of (T := ⟨S100000, .f32⟩) main_v15) select ]
/-- Operations 21 to 39 of @main. -/
abbrev opsD : List (HloOp τ sig (Elt F)) :=
  [ nullary main_c (constantI S_ 32 0#32),
    unary main_c main_v16 (broadcastInDim S1700000 ![] bcast_S_S1700000 : (⟨S_, .i32⟩ : BufTy).Contents (Elt F) → (⟨S1700000, .i32⟩ : BufTy).Contents (Elt F)),
    binary main_v5 main_v16 main_v17 (cmpi .slt : (⟨S1700000, .i32⟩ : BufTy).Contents (Elt F) → (⟨S1700000, .i32⟩ : BufTy).Contents (Elt F) → (⟨S1700000, .i1⟩ : BufTy).Contents (Elt F)),
    nullary main_c_3 (constantI S_ 32 100000#32),
    unary main_c_3 main_v18 (broadcastInDim S1700000 ![] bcast_S_S1700000 : (⟨S_, .i32⟩ : BufTy).Contents (Elt F) → (⟨S1700000, .i32⟩ : BufTy).Contents (Elt F)),
    binary main_v5 main_v18 main_v19 (addi : (⟨S1700000, .i32⟩ : BufTy).Contents (Elt F) → (⟨S1700000, .i32⟩ : BufTy).Contents (Elt F) → (⟨S1700000, .i32⟩ : BufTy).Contents (Elt F)),
    ternary main_v17 main_v19 main_v5 main_v20 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v20 main_v21 (broadcastInDim S1700000x1 ![0] bcast_S1700000_S1700000x1_0 : (⟨S1700000, .i32⟩ : BufTy).Contents (Elt F) → (⟨S1700000x1, .i32⟩ : BufTy).Contents (Elt F)),
    binary main_v15 main_v21 main_v22 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_4 (constantI S_ 32 0#32),
    unary main_c_4 main_v23 (broadcastInDim S1700000 ![] bcast_S_S1700000 : (⟨S_, .i32⟩ : BufTy).Contents (Elt F) → (⟨S1700000, .i32⟩ : BufTy).Contents (Elt F)),
    binary main_v6 main_v23 main_v24 (cmpi .slt : (⟨S1700000, .i32⟩ : BufTy).Contents (Elt F) → (⟨S1700000, .i32⟩ : BufTy).Contents (Elt F) → (⟨S1700000, .i1⟩ : BufTy).Contents (Elt F)),
    nullary main_c_5 (constantI S_ 32 100000#32),
    unary main_c_5 main_v25 (broadcastInDim S1700000 ![] bcast_S_S1700000 : (⟨S_, .i32⟩ : BufTy).Contents (Elt F) → (⟨S1700000, .i32⟩ : BufTy).Contents (Elt F)),
    binary main_v6 main_v25 main_v26 (addi : (⟨S1700000, .i32⟩ : BufTy).Contents (Elt F) → (⟨S1700000, .i32⟩ : BufTy).Contents (Elt F) → (⟨S1700000, .i32⟩ : BufTy).Contents (Elt F)),
    ternary main_v24 main_v26 main_v6 main_v27 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v27 main_v28 (broadcastInDim S1700000x1 ![0] bcast_S1700000_S1700000x1_0 : (⟨S1700000, .i32⟩ : BufTy).Contents (Elt F) → (⟨S1700000x1, .i32⟩ : BufTy).Contents (Elt F)),
    binary main_v15 main_v28 main_v29 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v22 main_v29 main_v30 (mulf : (⟨S1700000, .f32⟩ : BufTy).Contents (Elt F) → (⟨S1700000, .f32⟩ : BufTy).Contents (Elt F) → (⟨S1700000, .f32⟩ : BufTy).Contents (Elt F)) ]
/-- Operations 40 to 40 of @main. -/
abbrev opsE : List (HloOp τ sig (Elt F)) :=
  [ binary main_arg0 main_arg2 main_v31 ((fun l r => Host.dotGeneral dot_S100000x256_S256x128_S100000x128_1_0_0_1_n_n none l r) : (⟨S100000x256, .f32⟩ : BufTy).Contents (Elt F) → (⟨S256x128, .f32⟩ : BufTy).Contents (Elt F) → (⟨S100000x128, .f32⟩ : BufTy).Contents (Elt F)) ]
/-- Operations 41 to 56 of @main. -/
abbrev opsF : List (HloOp τ sig (Elt F)) :=
  [ nullary main_c_6 (constantI S_ 32 0#32),
    unary main_c_6 main_v32 (broadcastInDim S1700000 ![] bcast_S_S1700000 : (⟨S_, .i32⟩ : BufTy).Contents (Elt F) → (⟨S1700000, .i32⟩ : BufTy).Contents (Elt F)),
    binary main_v5 main_v32 main_v33 (cmpi .slt : (⟨S1700000, .i32⟩ : BufTy).Contents (Elt F) → (⟨S1700000, .i32⟩ : BufTy).Contents (Elt F) → (⟨S1700000, .i1⟩ : BufTy).Contents (Elt F)),
    nullary main_c_7 (constantI S_ 32 100000#32),
    unary main_c_7 main_v34 (broadcastInDim S1700000 ![] bcast_S_S1700000 : (⟨S_, .i32⟩ : BufTy).Contents (Elt F) → (⟨S1700000, .i32⟩ : BufTy).Contents (Elt F)),
    binary main_v5 main_v34 main_v35 (addi : (⟨S1700000, .i32⟩ : BufTy).Contents (Elt F) → (⟨S1700000, .i32⟩ : BufTy).Contents (Elt F) → (⟨S1700000, .i32⟩ : BufTy).Contents (Elt F)),
    ternary main_v33 main_v35 main_v5 main_v36 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v36 main_v37 (broadcastInDim S1700000x1 ![0] bcast_S1700000_S1700000x1_0 : (⟨S1700000, .i32⟩ : BufTy).Contents (Elt F) → (⟨S1700000x1, .i32⟩ : BufTy).Contents (Elt F)),
    binary main_v31 main_v37 main_v38 ((fun x i => Host.gather gather_S100000x128_S1700000x1_S1700000x128_1_0_n_n_0_1_1128 x i) : (⟨S100000x128, .f32⟩ : BufTy).Contents (Elt F) → (⟨S1700000x1, .i32⟩ : BufTy).Contents (Elt F) → (⟨S1700000x128, .f32⟩ : BufTy).Contents (Elt F)),
    unary main_v30 main_v39 (broadcastInDim S1700000x1 ![0] bcast_S1700000_S1700000x1_0 : (⟨S1700000, .f32⟩ : BufTy).Contents (Elt F) → (⟨S1700000x1, .f32⟩ : BufTy).Contents (Elt F)),
    unary main_v39 main_v40 (broadcastInDim S1700000x128 ![0, 1] bcast_S1700000x1_S1700000x128_0_1 : (⟨S1700000x1, .f32⟩ : BufTy).Contents (Elt F) → (⟨S1700000x128, .f32⟩ : BufTy).Contents (Elt F)),
    binary main_v38 main_v40 main_v41 (mulf : (⟨S1700000x128, .f32⟩ : BufTy).Contents (Elt F) → (⟨S1700000x128, .f32⟩ : BufTy).Contents (Elt F) → (⟨S1700000x128, .f32⟩ : BufTy).Contents (Elt F)),
    nullary main_cst_8 (constant S_ .f32 0x00000000#32),
    unary main_cst_8 main_v42 (broadcastInDim S100000x128 ![] bcast_S_S100000x128 : (⟨S_, .f32⟩ : BufTy).Contents (Elt F) → (⟨S100000x128, .f32⟩ : BufTy).Contents (Elt F)),
    unary main_v6 main_v43 (broadcastInDim S1700000x1 ![0] bcast_S1700000_S1700000x1_0 : (⟨S1700000, .i32⟩ : BufTy).Contents (Elt F) → (⟨S1700000x1, .i32⟩ : BufTy).Contents (Elt F)),
    ternary main_v42 main_v43 main_v41 main_v44 ((fun x i u => Host.scatterAdd scatter_S100000x128_S1700000x1_S1700000x128_1_0_0_1 x i u) : (⟨S100000x128, .f32⟩ : BufTy).Contents (Elt F) → (⟨S1700000x1, .i32⟩ : BufTy).Contents (Elt F) → (⟨S1700000x128, .f32⟩ : BufTy).Contents (Elt F) → (⟨S100000x128, .f32⟩ : BufTy).Contents (Elt F)) ]
/-- Operations 57 to 62 of @main. -/
abbrev opsG : List (HloOp τ sig (Elt F)) :=
  [ unary main_arg3 main_v45 (broadcastInDim S1x128 ![1] bcast_S128_S1x128_1 : (⟨S128, .f32⟩ : BufTy).Contents (Elt F) → (⟨S1x128, .f32⟩ : BufTy).Contents (Elt F)),
    unary main_v45 main_v46 (broadcastInDim S100000x128 ![0, 1] bcast_S1x128_S100000x128_0_1 : (⟨S1x128, .f32⟩ : BufTy).Contents (Elt F) → (⟨S100000x128, .f32⟩ : BufTy).Contents (Elt F)),
    binary main_v44 main_v46 main_v47 (addf : (⟨S100000x128, .f32⟩ : BufTy).Contents (Elt F) → (⟨S100000x128, .f32⟩ : BufTy).Contents (Elt F) → (⟨S100000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x128, .f32⟩) main_call1_v0) (broadcastInDim S100000x128 ![] bcast_S_S100000x128),
    TRef.binary (TRef.of (T := ⟨S100000x128, .f32⟩) main_v47) (TRef.of (T := ⟨S100000x128, .f32⟩) main_call1_v0) (TRef.of (T := ⟨S100000x128, .f32⟩) main_v48) maximumf ]
/-- Operations 63 to 78 of @main. -/
abbrev opsH : List (HloOp τ sig (Elt F)) :=
  [ nullary main_v49 (iotaInDim S100000 32 0),
    binary main_v1 main_v49 main_v50 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    binary main_v3 main_v49 main_v51 ((fun a b => concatenate S1700000 0 [⟨S1600000, a⟩, ⟨S100000, b⟩] concatenates_S1600000_S100000_S1700000_d0) : (⟨S1600000, .i32⟩ : BufTy).Contents (Elt F) → (⟨S100000, .i32⟩ : BufTy).Contents (Elt F) → (⟨S1700000, .i32⟩ : BufTy).Contents (Elt F)),
    nullary main_cst_9 (constant S_ .f32 0x3F800000#32),
    unary main_cst_9 main_v52 (broadcastInDim S1700000 ![] bcast_S_S1700000 : (⟨S_, .f32⟩ : BufTy).Contents (Elt F) → (⟨S1700000, .f32⟩ : BufTy).Contents (Elt F)),
    nullary main_cst_10 (constant S_ .f32 0x00000000#32),
    unary main_cst_10 main_v53 (broadcastInDim S100000 ![] bcast_S_S100000 : (⟨S_, .f32⟩ : BufTy).Contents (Elt F) → (⟨S100000, .f32⟩ : BufTy).Contents (Elt F)),
    unary main_v51 main_v54 (broadcastInDim S1700000x1 ![0] bcast_S1700000_S1700000x1_0 : (⟨S1700000, .i32⟩ : BufTy).Contents (Elt F) → (⟨S1700000x1, .i32⟩ : BufTy).Contents (Elt F)),
    ternary main_v53 main_v54 main_v52 main_v55 ((fun x i u => Host.scatterAdd scatter_S100000_S1700000x1_S1700000_n_0_0_1 x i u) : (⟨S100000, .f32⟩ : BufTy).Contents (Elt F) → (⟨S1700000x1, .i32⟩ : BufTy).Contents (Elt F) → (⟨S1700000, .f32⟩ : BufTy).Contents (Elt F) → (⟨S100000, .f32⟩ : BufTy).Contents (Elt F)),
    nullary main_cst_11 (constant S_ .f32 0x00000000#32),
    unary main_cst_11 main_v56 (broadcastInDim S100000 ![] bcast_S_S100000 : (⟨S_, .f32⟩ : BufTy).Contents (Elt F) → (⟨S100000, .f32⟩ : BufTy).Contents (Elt F)),
    binary main_v55 main_v56 main_v57 (cmpf .ogt : (⟨S100000, .f32⟩ : BufTy).Contents (Elt F) → (⟨S100000, .f32⟩ : BufTy).Contents (Elt F) → (⟨S100000, .i1⟩ : BufTy).Contents (Elt F)),
    unary main_v55 main_v58 (Host.rsqrt : (⟨S100000, .f32⟩ : BufTy).Contents (Elt F) → (⟨S100000, .f32⟩ : BufTy).Contents (Elt F)),
    nullary main_cst_12 (constant S_ .f32 0x00000000#32),
    unary main_cst_12 main_v59 (broadcastInDim S100000 ![] bcast_S_S100000 : (⟨S_, .f32⟩ : BufTy).Contents (Elt F) → (⟨S100000, .f32⟩ : BufTy).Contents (Elt F)),
    TRef.ternary (TRef.of (T := ⟨S100000, .i1⟩) main_v57) (TRef.of (T := ⟨S100000, .f32⟩) main_v58) (TRef.of (T := ⟨S100000, .f32⟩) main_v59) (TRef.of (T := ⟨S100000, .f32⟩) main_v60) select ]
/-- Operations 79 to 97 of @main. -/
abbrev opsI : List (HloOp τ sig (Elt F)) :=
  [ nullary main_c_13 (constantI S_ 32 0#32),
    unary main_c_13 main_v61 (broadcastInDim S1700000 ![] bcast_S_S1700000 : (⟨S_, .i32⟩ : BufTy).Contents (Elt F) → (⟨S1700000, .i32⟩ : BufTy).Contents (Elt F)),
    binary main_v50 main_v61 main_v62 (cmpi .slt : (⟨S1700000, .i32⟩ : BufTy).Contents (Elt F) → (⟨S1700000, .i32⟩ : BufTy).Contents (Elt F) → (⟨S1700000, .i1⟩ : BufTy).Contents (Elt F)),
    nullary main_c_14 (constantI S_ 32 100000#32),
    unary main_c_14 main_v63 (broadcastInDim S1700000 ![] bcast_S_S1700000 : (⟨S_, .i32⟩ : BufTy).Contents (Elt F) → (⟨S1700000, .i32⟩ : BufTy).Contents (Elt F)),
    binary main_v50 main_v63 main_v64 (addi : (⟨S1700000, .i32⟩ : BufTy).Contents (Elt F) → (⟨S1700000, .i32⟩ : BufTy).Contents (Elt F) → (⟨S1700000, .i32⟩ : BufTy).Contents (Elt F)),
    ternary main_v62 main_v64 main_v50 main_v65 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v65 main_v66 (broadcastInDim S1700000x1 ![0] bcast_S1700000_S1700000x1_0 : (⟨S1700000, .i32⟩ : BufTy).Contents (Elt F) → (⟨S1700000x1, .i32⟩ : BufTy).Contents (Elt F)),
    binary main_v60 main_v66 main_v67 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    nullary main_c_15 (constantI S_ 32 0#32),
    unary main_c_15 main_v68 (broadcastInDim S1700000 ![] bcast_S_S1700000 : (⟨S_, .i32⟩ : BufTy).Contents (Elt F) → (⟨S1700000, .i32⟩ : BufTy).Contents (Elt F)),
    binary main_v51 main_v68 main_v69 (cmpi .slt : (⟨S1700000, .i32⟩ : BufTy).Contents (Elt F) → (⟨S1700000, .i32⟩ : BufTy).Contents (Elt F) → (⟨S1700000, .i1⟩ : BufTy).Contents (Elt F)),
    nullary main_c_16 (constantI S_ 32 100000#32),
    unary main_c_16 main_v70 (broadcastInDim S1700000 ![] bcast_S_S1700000 : (⟨S_, .i32⟩ : BufTy).Contents (Elt F) → (⟨S1700000, .i32⟩ : BufTy).Contents (Elt F)),
    binary main_v51 main_v70 main_v71 (addi : (⟨S1700000, .i32⟩ : BufTy).Contents (Elt F) → (⟨S1700000, .i32⟩ : BufTy).Contents (Elt F) → (⟨S1700000, .i32⟩ : BufTy).Contents (Elt F)),
    ternary main_v69 main_v71 main_v51 main_v72 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v72 main_v73 (broadcastInDim S1700000x1 ![0] bcast_S1700000_S1700000x1_0 : (⟨S1700000, .i32⟩ : BufTy).Contents (Elt F) → (⟨S1700000x1, .i32⟩ : BufTy).Contents (Elt F)),
    binary main_v60 main_v73 main_v74 ((fun x i => Host.gather gather_S100000_S1700000x1_S1700000_n_0_n_n_0_1_1 x i) : (⟨S100000, .f32⟩ : BufTy).Contents (Elt F) → (⟨S1700000x1, .i32⟩ : BufTy).Contents (Elt F) → (⟨S1700000, .f32⟩ : BufTy).Contents (Elt F)),
    binary main_v67 main_v74 main_v75 (mulf : (⟨S1700000, .f32⟩ : BufTy).Contents (Elt F) → (⟨S1700000, .f32⟩ : BufTy).Contents (Elt F) → (⟨S1700000, .f32⟩ : BufTy).Contents (Elt F)) ]
/-- Operations 98 to 98 of @main. -/
abbrev opsJ : List (HloOp τ sig (Elt F)) :=
  [ binary main_v48 main_arg4 main_v76 ((fun l r => Host.dotGeneral dot_S100000x128_S128x16_S100000x16_1_0_0_1_n_n none l r) : (⟨S100000x128, .f32⟩ : BufTy).Contents (Elt F) → (⟨S128x16, .f32⟩ : BufTy).Contents (Elt F) → (⟨S100000x16, .f32⟩ : BufTy).Contents (Elt F)) ]
/-- Operations 99 to 114 of @main. -/
abbrev opsK : List (HloOp τ sig (Elt F)) :=
  [ nullary main_c_17 (constantI S_ 32 0#32),
    unary main_c_17 main_v77 (broadcastInDim S1700000 ![] bcast_S_S1700000 : (⟨S_, .i32⟩ : BufTy).Contents (Elt F) → (⟨S1700000, .i32⟩ : BufTy).Contents (Elt F)),
    binary main_v50 main_v77 main_v78 (cmpi .slt : (⟨S1700000, .i32⟩ : BufTy).Contents (Elt F) → (⟨S1700000, .i32⟩ : BufTy).Contents (Elt F) → (⟨S1700000, .i1⟩ : BufTy).Contents (Elt F)),
    nullary main_c_18 (constantI S_ 32 100000#32),
    unary main_c_18 main_v79 (broadcastInDim S1700000 ![] bcast_S_S1700000 : (⟨S_, .i32⟩ : BufTy).Contents (Elt F) → (⟨S1700000, .i32⟩ : BufTy).Contents (Elt F)),
    binary main_v50 main_v79 main_v80 (addi : (⟨S1700000, .i32⟩ : BufTy).Contents (Elt F) → (⟨S1700000, .i32⟩ : BufTy).Contents (Elt F) → (⟨S1700000, .i32⟩ : BufTy).Contents (Elt F)),
    ternary main_v78 main_v80 main_v50 main_v81 (select : (⟨S1700000, .i1⟩ : BufTy).Contents (Elt F) → (⟨S1700000, .i32⟩ : BufTy).Contents (Elt F) → (⟨S1700000, .i32⟩ : BufTy).Contents (Elt F) → (⟨S1700000, .i32⟩ : BufTy).Contents (Elt F)),
    unary main_v81 main_v82 (broadcastInDim S1700000x1 ![0] bcast_S1700000_S1700000x1_0 : (⟨S1700000, .i32⟩ : BufTy).Contents (Elt F) → (⟨S1700000x1, .i32⟩ : BufTy).Contents (Elt F)),
    binary main_v76 main_v82 main_v83 ((fun x i => Host.gather gather_S100000x16_S1700000x1_S1700000x16_1_0_n_n_0_1_116 x i) : (⟨S100000x16, .f32⟩ : BufTy).Contents (Elt F) → (⟨S1700000x1, .i32⟩ : BufTy).Contents (Elt F) → (⟨S1700000x16, .f32⟩ : BufTy).Contents (Elt F)),
    unary main_v75 main_v84 (broadcastInDim S1700000x1 ![0] bcast_S1700000_S1700000x1_0 : (⟨S1700000, .f32⟩ : BufTy).Contents (Elt F) → (⟨S1700000x1, .f32⟩ : BufTy).Contents (Elt F)),
    unary main_v84 main_v85 (broadcastInDim S1700000x16 ![0, 1] bcast_S1700000x1_S1700000x16_0_1 : (⟨S1700000x1, .f32⟩ : BufTy).Contents (Elt F) → (⟨S1700000x16, .f32⟩ : BufTy).Contents (Elt F)),
    binary main_v83 main_v85 main_v86 (mulf : (⟨S1700000x16, .f32⟩ : BufTy).Contents (Elt F) → (⟨S1700000x16, .f32⟩ : BufTy).Contents (Elt F) → (⟨S1700000x16, .f32⟩ : BufTy).Contents (Elt F)),
    nullary main_cst_19 (constant S_ .f32 0x00000000#32),
    unary main_cst_19 main_v87 (broadcastInDim S100000x16 ![] bcast_S_S100000x16 : (⟨S_, .f32⟩ : BufTy).Contents (Elt F) → (⟨S100000x16, .f32⟩ : BufTy).Contents (Elt F)),
    unary main_v51 main_v88 (broadcastInDim S1700000x1 ![0] bcast_S1700000_S1700000x1_0 : (⟨S1700000, .i32⟩ : BufTy).Contents (Elt F) → (⟨S1700000x1, .i32⟩ : BufTy).Contents (Elt F)),
    ternary main_v87 main_v88 main_v86 main_v89 ((fun x i u => Host.scatterAdd scatter_S100000x16_S1700000x1_S1700000x16_1_0_0_1 x i u) : (⟨S100000x16, .f32⟩ : BufTy).Contents (Elt F) → (⟨S1700000x1, .i32⟩ : BufTy).Contents (Elt F) → (⟨S1700000x16, .f32⟩ : BufTy).Contents (Elt F) → (⟨S100000x16, .f32⟩ : BufTy).Contents (Elt F)) ]
/-- Operations 115 to 132 of @main. -/
abbrev opsL : List (HloOp τ sig (Elt F)) :=
  [ unary main_arg5 main_v90 (broadcastInDim S1x16 ![1] bcast_S16_S1x16_1 : (⟨S16, .f32⟩ : BufTy).Contents (Elt F) → (⟨S1x16, .f32⟩ : BufTy).Contents (Elt F)),
    unary main_v90 main_v91 (broadcastInDim S100000x16 ![0, 1] bcast_S1x16_S100000x16_0_1 : (⟨S1x16, .f32⟩ : BufTy).Contents (Elt F) → (⟨S100000x16, .f32⟩ : BufTy).Contents (Elt F)),
    binary main_v89 main_v91 main_v92 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call3_cst) (constant S_ .f32 0xFF800000#32),
    TRef.binary (TRef.of (T := ⟨S100000x16, .f32⟩) main_v92) (TRef.of (T := ⟨S_, .f32⟩) main_call3_cst) (TRef.of (T := ⟨S100000, .f32⟩) main_call3_v0) (fun x v => Host.reduce FloatOps.maximumf x v reducesTo_S100000x16_S100000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S100000, .f32⟩) main_call3_v1) (broadcastInDim S100000 ![] bcast_S_S100000),
    TRef.binary (TRef.of (T := ⟨S100000, .f32⟩) main_call3_v1) (TRef.of (T := ⟨S100000, .f32⟩) main_call3_v0) (TRef.of (T := ⟨S100000, .f32⟩) main_call3_v2) maximumf,
    TRef.unary (TRef.of (T := ⟨S100000, .f32⟩) main_call3_v2) (TRef.of (T := ⟨S100000x1, .f32⟩) main_call3_v3) (broadcastInDim S100000x1 ![0] bcast_S100000_S100000x1_0),
    TRef.unary (TRef.of (T := ⟨S100000x1, .f32⟩) main_call3_v3) (TRef.of (T := ⟨S100000x16, .f32⟩) main_call3_v4) (broadcastInDim S100000x16 ![0, 1] bcast_S100000x1_S100000x16_0_1),
    TRef.binary (TRef.of (T := ⟨S100000x16, .f32⟩) main_v92) (TRef.of (T := ⟨S100000x16, .f32⟩) main_call3_v4) (TRef.of (T := ⟨S100000x16, .f32⟩) main_call3_v5) subf,
    TRef.unary (TRef.of (T := ⟨S100000x16, .f32⟩) main_call3_v5) (TRef.of (T := ⟨S100000x16, .f32⟩) main_call3_v6) Host.exp,
    TRef.nullary (TRef.of (T := ⟨S_, .f32⟩) main_call3_cst_1) (constant S_ .f32 0x00000000#32),
    TRef.binary (TRef.of (T := ⟨S100000x16, .f32⟩) main_call3_v6) (TRef.of (T := ⟨S_, .f32⟩) main_call3_cst_1) (TRef.of (T := ⟨S100000, .f32⟩) main_call3_v7) (fun x v => Host.reduceAdd x v reducesTo_S100000x16_S100000_d1 h_S_),
    TRef.unary (TRef.of (T := ⟨S100000, .f32⟩) main_call3_v7) (TRef.of (T := ⟨S100000x1, .f32⟩) main_call3_v8) (broadcastInDim S100000x1 ![0] bcast_S100000_S100000x1_0),
    TRef.unary (TRef.of (T := ⟨S100000x1, .f32⟩) main_call3_v8) (TRef.of (T := ⟨S100000x1, .f32⟩) main_call3_v9) Host.log,
    TRef.unary (TRef.of (T := ⟨S100000x1, .f32⟩) main_call3_v9) (TRef.of (T := ⟨S100000x16, .f32⟩) main_call3_v10) (broadcastInDim S100000x16 ![0, 1] bcast_S100000x1_S100000x16_0_1),
    TRef.binary (TRef.of (T := ⟨S100000x16, .f32⟩) main_call3_v5) (TRef.of (T := ⟨S100000x16, .f32⟩) main_call3_v10) (TRef.of (T := ⟨S100000x16, .f32⟩) main_v93) subf ]

/-- @main's operations are the twelve stretches in order. -/
theorem ops_split : (ops : List (HloOp τ sig (Elt F))) = opsA ++ (opsB ++ (opsC ++ (opsD ++ (opsE ++ (opsF ++ (opsG ++ (opsH ++ (opsI ++ (opsJ ++ (opsK ++ (opsL))))))))))) := rfl
end Lists

/-! ## The contents at each cut -/

variable (m : (ℓ : Loc nD τ sig) → Buf (Elt Ideal) ℓ) (c : Dev nD)

/-- The six arguments as launched. -/
abbrev aX : (⟨S100000x256, .f32⟩ : BufTy).Contents (Elt Ideal) := m ((c.tc : Thread nD τ).loc main_arg0)
abbrev aE : (⟨S2x1600000, .i32⟩ : BufTy).Contents (Elt Ideal) := m ((c.tc : Thread nD τ).loc main_arg1)
abbrev aW1 : (⟨S256x128, .f32⟩ : BufTy).Contents (Elt Ideal) := m ((c.tc : Thread nD τ).loc main_arg2)
abbrev aB1 : (⟨S128, .f32⟩ : BufTy).Contents (Elt Ideal) := m ((c.tc : Thread nD τ).loc main_arg3)
abbrev aW2 : (⟨S128x16, .f32⟩ : BufTy).Contents (Elt Ideal) := m ((c.tc : Thread nD τ).loc main_arg4)
abbrev aB2 : (⟨S16, .f32⟩ : BufTy).Contents (Elt Ideal) := m ((c.tc : Thread nD τ).loc main_arg5)

/-- Core c's buffers at launch. -/
def V0 : Valuation τ sig (Elt Ideal) := launchContents m c
/-- After stretch A. -/
def VA : Valuation τ sig (Elt Ideal) := StableHlo.after opsA (V0 m c)
/-- After stretch B. -/
def VB : Valuation τ sig (Elt Ideal) := StableHlo.after opsB (VA m c)
/-- After stretch C. -/
def VC : Valuation τ sig (Elt Ideal) := StableHlo.after opsC (VB m c)
/-- After stretch D. -/
def VD : Valuation τ sig (Elt Ideal) := StableHlo.after opsD (VC m c)
/-- After stretch E. -/
def VE : Valuation τ sig (Elt Ideal) := StableHlo.after opsE (VD m c)
/-- After stretch F. -/
def VF : Valuation τ sig (Elt Ideal) := StableHlo.after opsF (VE m c)
/-- After stretch G. -/
def VG : Valuation τ sig (Elt Ideal) := StableHlo.after opsG (VF m c)
/-- After stretch H. -/
def VH : Valuation τ sig (Elt Ideal) := StableHlo.after opsH (VG m c)
/-- After stretch I. -/
def VI : Valuation τ sig (Elt Ideal) := StableHlo.after opsI (VH m c)
/-- After stretch J. -/
def VJ : Valuation τ sig (Elt Ideal) := StableHlo.after opsJ (VI m c)
/-- After stretch K. -/
def VK : Valuation τ sig (Elt Ideal) := StableHlo.after opsK (VJ m c)
/-- After stretch L. -/
def VL : Valuation τ sig (Elt Ideal) := StableHlo.after opsL (VK m c)

/-- The whole fold is the last cut's contents. -/
theorem after_ops : StableHlo.after (ops (F := Ideal)) (launchContents m c) = VL m c := by
  rw [ops_split]
  simp only [StableHlo.after_append]
  rfl

open Lean in
/-- A buffer none of the listed operations writes keeps its contents. -/
local macro "keeps" "[" ids:ident,* "]" : tactic => do
  let mut lemmas : Array (TSyntax `Lean.Parser.Tactic.simpLemma) := #[]
  for i in ids.getElems do
    lemmas := lemmas.push (← `(Lean.Parser.Tactic.simpLemma| $i:ident))
  `(tactic| (
  refine StableHlo.after_of_forall_not_mem _ _ (List.forall_iff_forall_mem.mp ?_)
  simp only [$lemmas,*, List.cons_append, List.nil_append, List.append_nil, List.Forall, StableHlo.nullary_writes, StableHlo.unary_writes,
    StableHlo.binary_writes, StableHlo.ternary_writes, StableHlo.quaternary_writes, StableHlo.reshape_writes,
    StableHlo.binaryIndexed_writes, Finset.mem_singleton]
  repeat' apply And.intro
  all_goals exact StableHlo.devRef_ne_of_ne (by decide)))

/-! ### At the cut after stretch A -/

theorem atA_v1 : VA m c (Proc.devRef .tc main_v1) = val_main_v1 (F := Ideal) (aE m c) := by
  show StableHlo.after opsA (V0 m c) _ = _
  after_results
  rfl

theorem atA_v3 : VA m c (Proc.devRef .tc main_v3) = val_main_v3 (F := Ideal) (aE m c) := by
  show StableHlo.after opsA (V0 m c) _ = _
  after_results
  rfl

theorem atA_v4 : VA m c (Proc.devRef .tc main_v4) = val_main_v4 (F := Ideal) := by
  show StableHlo.after opsA (V0 m c) _ = _
  after_results
  rfl

/-! ### At the cut after stretch B -/

theorem atB_v5 : VB m c (Proc.devRef .tc main_v5) = val_main_v5 (F := Ideal) (aE m c) := by
  show StableHlo.after opsB (VA m c) _ = _
  have h0 := atA_v1 m c
  have h1 := atA_v4 m c
  generalize VA m c = Vv at h0 h1 ⊢
  after_results
  rw [h0, h1]
  rfl

theorem atB_v6 : VB m c (Proc.devRef .tc main_v6) = val_main_v6 (F := Ideal) (aE m c) := by
  show StableHlo.after opsB (VA m c) _ = _
  have h0 := atA_v3 m c
  have h1 := atA_v4 m c
  generalize VA m c = Vv at h0 h1 ⊢
  after_results
  rw [h0, h1]
  rfl

theorem atB_v12 : VB m c (Proc.devRef .tc main_v12) = val_main_v12 (F := Ideal) (aE m c) := by
  show StableHlo.after opsB (VA m c) _ = _
  have h0 := atA_v3 m c
  have h1 := atA_v4 m c
  generalize VA m c = Vv at h0 h1 ⊢
  after_results
  rw [h0, h1]
  rfl

theorem atB_v13 : VB m c (Proc.devRef .tc main_v13) = val_main_v13 (F := Ideal) (aE m c) := by
  show StableHlo.after opsB (VA m c) _ = _
  have h0 := atA_v3 m c
  have h1 := atA_v4 m c
  generalize VA m c = Vv at h0 h1 ⊢
  after_results
  rw [h0, h1]
  rfl

theorem atB_v14 : VB m c (Proc.devRef .tc main_v14) = val_main_v14 (F := Ideal) := by
  show StableHlo.after opsB (VA m c) _ = _
  generalize VA m c = Vv
  after_results
  rfl

/-! ### At the cut after stretch C -/

/-- The inlined selection writes the selection of its operands: the typed references' transports are identities. -/
theorem where_eq (a : (⟨S100000, .i1⟩ : BufTy).Contents (Elt Ideal)) (b d : (⟨S100000, .f32⟩ : BufTy).Contents (Elt Ideal)) :
    (TRef.of (sig := sig) (T := ⟨S100000, .f32⟩) main_v15).toBuf (select ((TRef.of (sig := sig) (T := ⟨S100000, .i1⟩) main_v12).ofBuf a)
      ((TRef.of (sig := sig) (T := ⟨S100000, .f32⟩) main_v13).ofBuf b) ((TRef.of (sig := sig) (T := ⟨S100000, .f32⟩) main_v14).ofBuf d)) = select a b d := rfl

theorem atC_v15 : VC m c (Proc.devRef .tc main_v15) = val_main_v15 (F := Ideal) (aE m c) := by
  show StableHlo.after opsC (VB m c) _ = _
  have h0 := atB_v12 m c
  have h1 := atB_v13 m c
  have h2 := atB_v14 m c
  generalize VB m c = Vv at h0 h1 h2 ⊢
  after_results
  rw [h0, h1, h2]
  unfold val_main_v15
  exact where_eq _ _ _

theorem atC_v5 : VC m c (Proc.devRef .tc main_v5) = val_main_v5 (F := Ideal) (aE m c) := by
  have e : VC m c = StableHlo.after (opsC) (VB m c) := by
    simp only [VC, StableHlo.after_append]
  rw [e]
  refine Eq.trans ?_ (atB_v5 m c)
  keeps [opsC]

theorem atC_v6 : VC m c (Proc.devRef .tc main_v6) = val_main_v6 (F := Ideal) (aE m c) := by
  have e : VC m c = StableHlo.after (opsC) (VB m c) := by
    simp only [VC, StableHlo.after_append]
  rw [e]
  refine Eq.trans ?_ (atB_v6 m c)
  keeps [opsC]

/-! ### At the cut after stretch D -/

theorem atD_v30 : VD m c (Proc.devRef .tc main_v30) = val_main_v30 (F := Ideal) (aE m c) := by
  show StableHlo.after opsD (VC m c) _ = _
  have h0 := atC_v15 m c
  have h1 := atC_v5 m c
  have h2 := atC_v6 m c
  generalize VC m c = Vv at h0 h1 h2 ⊢
  after_results_simp
  rw [h0, h1, h2]
  rfl

theorem atD_arg0 : VD m c (Proc.devRef .tc main_arg0) = aX m c := by
  have e : VD m c = StableHlo.after (opsA ++ (opsB ++ (opsC ++ (opsD)))) (V0 m c) := by
    simp only [VD, VC, VB, VA, StableHlo.after_append]
  rw [e]
  refine Eq.trans ?_ (rfl : V0 m c (Proc.devRef .tc main_arg0) = _)
  keeps [opsA, opsB, opsC, opsD]

theorem atD_arg2 : VD m c (Proc.devRef .tc main_arg2) = aW1 m c := by
  have e : VD m c = StableHlo.after (opsA ++ (opsB ++ (opsC ++ (opsD)))) (V0 m c) := by
    simp only [VD, VC, VB, VA, StableHlo.after_append]
  rw [e]
  refine Eq.trans ?_ (rfl : V0 m c (Proc.devRef .tc main_arg2) = _)
  keeps [opsA, opsB, opsC, opsD]

/-! ### At the cut after stretch E -/

theorem atE_v31 : VE m c (Proc.devRef .tc main_v31) = val_main_v31 (F := Ideal) (aX m c) (aW1 m c) := by
  show StableHlo.after opsE (VD m c) _ = _
  have h0 := atD_arg0 m c
  have h1 := atD_arg2 m c
  generalize VD m c = Vv at h0 h1 ⊢
  after_results
  rw [h0, h1]
  rfl

theorem atE_v5 : VE m c (Proc.devRef .tc main_v5) = val_main_v5 (F := Ideal) (aE m c) := by
  have e : VE m c = StableHlo.after (opsD ++ (opsE)) (VC m c) := by
    simp only [VE, VD, StableHlo.after_append]
  rw [e]
  refine Eq.trans ?_ (atC_v5 m c)
  keeps [opsD, opsE]

theorem atE_v6 : VE m c (Proc.devRef .tc main_v6) = val_main_v6 (F := Ideal) (aE m c) := by
  have e : VE m c = StableHlo.after (opsD ++ (opsE)) (VC m c) := by
    simp only [VE, VD, StableHlo.after_append]
  rw [e]
  refine Eq.trans ?_ (atC_v6 m c)
  keeps [opsD, opsE]

theorem atE_v30 : VE m c (Proc.devRef .tc main_v30) = val_main_v30 (F := Ideal) (aE m c) := by
  have e : VE m c = StableHlo.after (opsE) (VD m c) := by
    simp only [VE, StableHlo.after_append]
  rw [e]
  refine Eq.trans ?_ (atD_v30 m c)
  keeps [opsE]

/-! ### At the cut after stretch F -/

theorem atF_v44 : VF m c (Proc.devRef .tc main_v44) = val_main_v44 (F := Ideal) (aX m c) (aE m c) (aW1 m c) := by
  show StableHlo.after opsF (VE m c) _ = _
  have h0 := atE_v31 m c
  have h1 := atE_v5 m c
  have h2 := atE_v6 m c
  have h3 := atE_v30 m c
  generalize VE m c = Vv at h0 h1 h2 h3 ⊢
  after_results_simp
  rw [h0, h1, h2, h3]
  rfl

theorem atF_arg3 : VF m c (Proc.devRef .tc main_arg3) = aB1 m c := by
  have e : VF m c = StableHlo.after (opsA ++ (opsB ++ (opsC ++ (opsD ++ (opsE ++ (opsF)))))) (V0 m c) := by
    simp only [VF, VE, VD, VC, VB, VA, StableHlo.after_append]
  rw [e]
  refine Eq.trans ?_ (rfl : V0 m c (Proc.devRef .tc main_arg3) = _)
  keeps [opsA, opsB, opsC, opsD, opsE, opsF]

/-! ### At the cut after stretch G -/

/-- The inlined rectifier writes the maximum of its operand and the zero splat: the typed references' transports
    are identities. -/
theorem relu_eq (a : (⟨S100000x128, .f32⟩ : BufTy).Contents (Elt Ideal)) (z : (⟨S_, .f32⟩ : BufTy).Contents (Elt Ideal)) :
    (TRef.of (sig := sig) (T := ⟨S100000x128, .f32⟩) main_v48).toBuf (Val := Elt Ideal)
      (maximumf (F := Ideal) (φ := .f32) ((TRef.of (sig := sig) (T := ⟨S100000x128, .f32⟩) main_v47).ofBuf (Val := Elt Ideal) a)
        ((TRef.of (sig := sig) (T := ⟨S100000x128, .f32⟩) main_call1_v0).ofBuf (Val := Elt Ideal)
          ((TRef.of (sig := sig) (T := ⟨S100000x128, .f32⟩) main_call1_v0).toBuf (Val := Elt Ideal)
            (broadcastInDim S100000x128 ![] bcast_S_S100000x128
              ((TRef.of (sig := sig) (T := ⟨S_, .f32⟩) main_call1_cst).ofBuf (Val := Elt Ideal)
                ((TRef.of (sig := sig) (T := ⟨S_, .f32⟩) main_call1_cst).toBuf (Val := Elt Ideal) z))))))
      = (maximumf (F := Ideal) (φ := .f32) a (broadcastInDim S100000x128 ![] bcast_S_S100000x128 z) : (⟨S100000x128, .f32⟩ : BufTy).Contents (Elt Ideal)) := rfl

theorem atG_v48 : VG m c (Proc.devRef .tc main_v48) = val_main_v48 (F := Ideal) (aX m c) (aE m c) (aW1 m c) (aB1 m c) := by
  show StableHlo.after opsG (VF m c) _ = _
  have h0 := atF_v44 m c
  have h1 := atF_arg3 m c
  generalize VF m c = Vv at h0 h1 ⊢
  after_results
  rw [h0, h1]
  unfold val_main_v48 val_main_v47 val_main_v46 val_main_v45 val_main_call1_v0 val_main_call1_cst
  exact relu_eq _ _

theorem atG_v1 : VG m c (Proc.devRef .tc main_v1) = val_main_v1 (F := Ideal) (aE m c) := by
  have e : VG m c = StableHlo.after (opsB ++ (opsC ++ (opsD ++ (opsE ++ (opsF ++ (opsG)))))) (VA m c) := by
    simp only [VG, VF, VE, VD, VC, VB, StableHlo.after_append]
  rw [e]
  refine Eq.trans ?_ (atA_v1 m c)
  keeps [opsB, opsC, opsD, opsE, opsF, opsG]

theorem atG_v3 : VG m c (Proc.devRef .tc main_v3) = val_main_v3 (F := Ideal) (aE m c) := by
  have e : VG m c = StableHlo.after (opsB ++ (opsC ++ (opsD ++ (opsE ++ (opsF ++ (opsG)))))) (VA m c) := by
    simp only [VG, VF, VE, VD, VC, VB, StableHlo.after_append]
  rw [e]
  refine Eq.trans ?_ (atA_v3 m c)
  keeps [opsB, opsC, opsD, opsE, opsF, opsG]

/-! ### At the cut after stretch H -/

theorem atH_v50 : VH m c (Proc.devRef .tc main_v50) = val_main_v50 (F := Ideal) (aE m c) := by
  show StableHlo.after opsH (VG m c) _ = _
  have h0 := atG_v1 m c
  generalize VG m c = Vv at h0 ⊢
  generalize aE m c = E at h0 ⊢
  after_results
  rw [h0]
  unfold val_main_v50 val_main_v49
  generalize val_main_v1 (F := Ideal) E = a
  rfl

theorem atH_v51 : VH m c (Proc.devRef .tc main_v51) = val_main_v51 (F := Ideal) (aE m c) := by
  show StableHlo.after opsH (VG m c) _ = _
  have h0 := atG_v3 m c
  generalize VG m c = Vv at h0 ⊢
  generalize aE m c = E at h0 ⊢
  after_results
  rw [h0]
  unfold val_main_v51 val_main_v49
  generalize val_main_v3 (F := Ideal) E = a
  rfl

/-- The second guard's one operation over arbitrary operands: a buffer read or written at its own type is unchanged. -/
theorem where2_eq (a : (⟨S100000, .i1⟩ : BufTy).Contents (Elt Ideal)) (b d : (⟨S100000, .f32⟩ : BufTy).Contents (Elt Ideal)) :
    (TRef.of (T := ⟨S100000, .f32⟩) main_v60 : TRef sig ⟨S100000, .f32⟩).toBuf
      (select ((TRef.of (T := ⟨S100000, .i1⟩) main_v57 : TRef sig ⟨S100000, .i1⟩).ofBuf a)
        ((TRef.of (T := ⟨S100000, .f32⟩) main_v58 : TRef sig ⟨S100000, .f32⟩).ofBuf b)
        ((TRef.of (T := ⟨S100000, .f32⟩) main_v59 : TRef sig ⟨S100000, .f32⟩).ofBuf d))
      = select a b d := rfl

theorem atH_v60 : VH m c (Proc.devRef .tc main_v60) = val_main_v60 (F := Ideal) (aE m c) := by
  show StableHlo.after opsH (VG m c) _ = _
  have h0 := atG_v3 m c
  generalize VG m c = Vv at h0 ⊢
  generalize aE m c = E at h0 ⊢
  after_results
  rw [h0]
  unfold val_main_v60 val_main_v57 val_main_v58 val_main_v59 val_main_v55 val_main_v56 val_main_v52 val_main_v53
    val_main_v54 val_main_v51 val_main_v49 val_main_cst_9 val_main_cst_10 val_main_cst_11 val_main_cst_12
  generalize val_main_v3 (F := Ideal) E = a
  exact where2_eq _ _ _

/-! ### At the cut after stretch I -/

theorem atI_v75 : VI m c (Proc.devRef .tc main_v75) = val_main_v75 (F := Ideal) (aE m c) := by
  show StableHlo.after opsI (VH m c) _ = _
  have h0 := atH_v60 m c
  have h1 := atH_v50 m c
  have h2 := atH_v51 m c
  generalize VH m c = Vv at h0 h1 h2 ⊢
  generalize aE m c = E at h0 h1 h2 ⊢
  after_results_simp
  rw [h0, h1, h2]
  unfold val_main_v75 val_main_v67 val_main_v74 val_main_v66 val_main_v73 val_main_v65 val_main_v72 val_main_v62
    val_main_v64 val_main_v69 val_main_v71 val_main_v61 val_main_v63 val_main_v68 val_main_v70 val_main_c_13
    val_main_c_14 val_main_c_15 val_main_c_16
  generalize val_main_v60 (F := Ideal) E = a
  generalize val_main_v50 (F := Ideal) E = b
  generalize val_main_v51 (F := Ideal) E = d
  rfl

theorem atI_v48 : VI m c (Proc.devRef .tc main_v48) = val_main_v48 (F := Ideal) (aX m c) (aE m c) (aW1 m c) (aB1 m c) := by
  have e : VI m c = StableHlo.after (opsH ++ (opsI)) (VG m c) := by
    simp only [VI, VH, StableHlo.after_append]
  rw [e]
  refine Eq.trans ?_ (atG_v48 m c)
  keeps [opsH, opsI]

theorem atI_arg4 : VI m c (Proc.devRef .tc main_arg4) = aW2 m c := by
  have e : VI m c = StableHlo.after (opsA ++ (opsB ++ (opsC ++ (opsD ++ (opsE ++ (opsF ++ (opsG ++ (opsH ++ (opsI))))))))) (V0 m c) := by
    simp only [VI, VH, VG, VF, VE, VD, VC, VB, VA, StableHlo.after_append]
  rw [e]
  refine Eq.trans ?_ (rfl : V0 m c (Proc.devRef .tc main_arg4) = _)
  keeps [opsA, opsB, opsC, opsD, opsE, opsF, opsG, opsH, opsI]

/-! ### At the cut after stretch J -/

theorem atJ_v76 : VJ m c (Proc.devRef .tc main_v76) = val_main_v76 (F := Ideal) (aX m c) (aE m c) (aW1 m c) (aB1 m c) (aW2 m c) := by
  show StableHlo.after opsJ (VI m c) _ = _
  have h0 := atI_v48 m c
  have h1 := atI_arg4 m c
  generalize VI m c = Vv at h0 h1 ⊢
  after_results
  rw [h0, h1]
  rfl

theorem atJ_v50 : VJ m c (Proc.devRef .tc main_v50) = val_main_v50 (F := Ideal) (aE m c) := by
  have e : VJ m c = StableHlo.after (opsI ++ (opsJ)) (VH m c) := by
    simp only [VJ, VI, StableHlo.after_append]
  rw [e]
  refine Eq.trans ?_ (atH_v50 m c)
  keeps [opsI, opsJ]

theorem atJ_v51 : VJ m c (Proc.devRef .tc main_v51) = val_main_v51 (F := Ideal) (aE m c) := by
  have e : VJ m c = StableHlo.after (opsI ++ (opsJ)) (VH m c) := by
    simp only [VJ, VI, StableHlo.after_append]
  rw [e]
  refine Eq.trans ?_ (atH_v51 m c)
  keeps [opsI, opsJ]

theorem atJ_v75 : VJ m c (Proc.devRef .tc main_v75) = val_main_v75 (F := Ideal) (aE m c) := by
  have e : VJ m c = StableHlo.after (opsJ) (VI m c) := by
    simp only [VJ, StableHlo.after_append]
  rw [e]
  refine Eq.trans ?_ (atI_v75 m c)
  keeps [opsJ]

/-! ### At the cut after stretch K -/

theorem atK_v89 : VK m c (Proc.devRef .tc main_v89) = val_main_v89 (F := Ideal) (aX m c) (aE m c) (aW1 m c) (aB1 m c) (aW2 m c) := by
  show StableHlo.after opsK (VJ m c) _ = _
  have h0 := atJ_v76 m c
  have h1 := atJ_v50 m c
  have h2 := atJ_v51 m c
  have h3 := atJ_v75 m c
  generalize VJ m c = Vv at h0 h1 h2 h3 ⊢
  generalize aE m c = E at h0 h1 h2 h3 ⊢
  generalize aX m c = X at h0 ⊢
  generalize aW1 m c = W at h0 ⊢
  generalize aB1 m c = B at h0 ⊢
  generalize aW2 m c = W' at h0 ⊢
  after_results_simp
  rw [h0, h1, h2, h3]
  unfold val_main_v89 val_main_v87 val_main_v88 val_main_v86 val_main_v83 val_main_v85 val_main_v84 val_main_v82
    val_main_v81 val_main_v78 val_main_v80 val_main_v77 val_main_v79 val_main_c_17 val_main_c_18 val_main_cst_19
  generalize val_main_v76 (F := Ideal) X E W B W' = a
  generalize val_main_v50 (F := Ideal) E = b
  generalize val_main_v51 (F := Ideal) E = d
  generalize val_main_v75 (F := Ideal) E = e
  rfl

theorem atK_arg5 : VK m c (Proc.devRef .tc main_arg5) = aB2 m c := by
  have e : VK m c = StableHlo.after (opsA ++ (opsB ++ (opsC ++ (opsD ++ (opsE ++ (opsF ++ (opsG ++ (opsH ++ (opsI ++ (opsJ ++ (opsK))))))))))) (V0 m c) := by
    simp only [VK, VJ, VI, VH, VG, VF, VE, VD, VC, VB, VA, StableHlo.after_append]
  rw [e]
  refine Eq.trans ?_ (rfl : V0 m c (Proc.devRef .tc main_arg5) = _)
  keeps [opsA, opsB, opsC, opsD, opsE, opsF, opsG, opsH, opsI, opsJ, opsK]

/-! ### At the cut after stretch L -/

/-- Contents written to a buffer at the value's type and read back at it are the contents. -/
theorem ofBuf_toBuf {T : BufTy} (x : TRef sig T) (v : T.Contents (Elt Ideal)) : x.ofBuf (x.toBuf v) = v := by
  obtain ⟨r, rfl, _, _⟩ := x
  rfl

/-- The biased scores' buffer, read at its own type, is unchanged. -/
theorem ofBuf_v92 (v : (⟨S100000x16, .f32⟩ : BufTy).Contents (Elt Ideal)) :
    (TRef.of (T := ⟨S100000x16, .f32⟩) main_v92 : TRef sig ⟨S100000x16, .f32⟩).ofBuf v = v := rfl

/-- The result buffer, written at its own type, holds what is written. -/
theorem toBuf_v93 (v : (⟨S100000x16, .f32⟩ : BufTy).Contents (Elt Ideal)) :
    (TRef.of (T := ⟨S100000x16, .f32⟩) main_v93 : TRef sig ⟨S100000x16, .f32⟩).toBuf v = v := rfl

theorem atL_v93 : VL m c (Proc.devRef .tc main_v93) = val_main_v93 (F := Ideal) (aX m c) (aE m c) (aW1 m c) (aB1 m c) (aW2 m c) (aB2 m c) := by
  show StableHlo.after opsL (VK m c) _ = _
  have h0 := atK_v89 m c
  have h1 := atK_arg5 m c
  generalize VK m c = Vv at h0 h1 ⊢
  generalize aB2 m c = b at h1 ⊢
  after_results_simp
  rw [h0, h1]
  unfold val_main_v93 val_main_call3_v10 val_main_call3_v9 val_main_call3_v8 val_main_call3_v7 val_main_call3_v6
    val_main_call3_v5 val_main_call3_v4 val_main_call3_v3 val_main_call3_v2 val_main_call3_v1 val_main_call3_v0
    val_main_call3_cst val_main_call3_cst_0 val_main_call3_cst_1 val_main_v92 val_main_v91 val_main_v90
  generalize val_main_v89 (F := Ideal) (aX m c) (aE m c) (aW1 m c) (aB1 m c) (aW2 m c) = a
  simp only [ofBuf_toBuf, ofBuf_v92, toBuf_v93]

/-! ## The run -/

/-- The result buffer after the whole fold is the last stage function of the arguments. -/
theorem result_eq : StableHlo.after (ops (F := Ideal)) (launchContents m c) (Proc.devRef .tc main_v93)
    = val_main_v93 (F := Ideal) (aX m c) (aE m c) (aW1 m c) (aB1 m c) (aW2 m c) (aB2 m c) :=
  (congrFun (after_ops m c) _).trans (atL_v93 m c)

/-- No operation writes an argument array. -/
theorem arg_kept (b : Ref sig .tc) (hb : b = main_arg0 ∨ b = main_arg1 ∨ b = main_arg2 ∨ b = main_arg3 ∨ b = main_arg4 ∨ b = main_arg5) :
    StableHlo.after (ops (F := Ideal)) (launchContents m c) (Proc.devRef .tc b) = m ((c.tc : Thread nD τ).loc b) := by
  rw [ops_split]
  refine Eq.trans ?_ (rfl : launchContents m c (Proc.devRef .tc b) = _)
  rcases hb with rfl | rfl | rfl | rfl | rfl | rfl <;>
    keeps [opsA, opsB, opsC, opsD, opsE, opsF, opsG, opsH, opsI, opsJ, opsK, opsL]

/-- Every weakly fair execution of the reference from `m` terminates without a fault, with the result at the last
    stage function of the arguments and the arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v93) = val_main_v93 (F := Ideal) (aX m c) (aE m c) (aW1 m c) (aB1 m c) (aW2 m c) (aB2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v93).trans (result_eq m c),
      (h c main_arg0).trans (arg_kept m c _ (.inl rfl)),
      (h c main_arg1).trans (arg_kept m c _ (.inr (.inl rfl))),
      (h c main_arg2).trans (arg_kept m c _ (.inr (.inr (.inl rfl)))),
      (h c main_arg3).trans (arg_kept m c _ (.inr (.inr (.inr (.inl rfl))))),
      (h c main_arg4).trans (arg_kept m c _ (.inr (.inr (.inr (.inr (.inl rfl)))))),
      (h c main_arg5).trans (arg_kept m c _ (.inr (.inr (.inr (.inr (.inr rfl))))))⟩)
    (run_seq scopedRefs_eq scopedSems_eq defs main (fun _ => ops) main_eq (fun _ => ops_sub) m ρ)

end Cert.ReferenceIdeal.RefFold

end
-- ==== Proof.lean ====
/-
  A two-layer graph convolution, tiled against plain: the certificate's five claims.

  Both programs compute, over 100000 nodes and 1600000 edges with a self-loop added at every node,
      out = log_softmax( P( max(P(X·W1) + b1, 0) · W2 ) + b2 ),
  where P gathers each edge's source row, scales it by the symmetric degree normalisation of the edge
  (1/sqrt(deg) at both ends, zero where a degree is zero) and adds it up at the edge's destination.
  The tiled program runs the three dense stages — X·W1; bias, rectifier and ·W2; bias and log-softmax — each as 25
  tiles of 4000 rows, and leaves P to the host operations between them; the reference is one straight line of host
  operations. At the extended reals a change of float format is the identity and a matrix product is a plain sum, so
  tile by tile the three dense stages are the reference's (a row of a product depends only on the same row of its
  left factor; the log-softmax is row-wise), and the host stretches are operation for operation the reference's own.
  No algebraic law beyond that is used, so the precondition is never opened.

  * The frames of the two tiled programs are the generated ones. The reference's frame is its run with the result
    forgotten.
  * The ideal pass rewrote nothing, so `preserves` asks nothing.
  * `algebraic`: the tiled program's result buffer ends at the third region's output array, which read back through
    the run is the reference's last stage function of the six arguments; the reference's result ends at the same
    function of its own arguments, which agree.
-/
import proofs.«135146_j54477365182993_2_alg».proof.Defs
import proofs.«135146_j54477365182993_2_alg».proof.Proof.Gen.Kernel
import proofs.«135146_j54477365182993_2_alg».proof.Proof.Gen.Kernel.Skeleton
import proofs.«135146_j54477365182993_2_alg».proof.Proof.Gen.Kernel.Launch
import proofs.«135146_j54477365182993_2_alg».proof.Proof.Gen.Kernel.Points
import proofs.«135146_j54477365182993_2_alg».proof.Proof.Gen.Kernel.Frame
import proofs.«135146_j54477365182993_2_alg».proof.Proof.Gen.KernelIdeal
import proofs.«135146_j54477365182993_2_alg».proof.Proof.Gen.KernelIdeal.Skeleton
import proofs.«135146_j54477365182993_2_alg».proof.Proof.Gen.KernelIdeal.Launch
import proofs.«135146_j54477365182993_2_alg».proof.Proof.Gen.KernelIdeal.Points
import proofs.«135146_j54477365182993_2_alg».proof.Proof.Gen.KernelIdeal.Frame
import proofs.«135146_j54477365182993_2_alg».proof.Proof.Gen.ReferenceIdeal
import proofs.«135146_j54477365182993_2_alg».proof.Proof.RefRun
import proofs.«135146_j54477365182993_2_alg».proof.Proof.RefRead
import proofs.«135146_j54477365182993_2_alg».proof.Proof.Gen.Pre_finite_inputs
import proofs.«135146_j54477365182993_2_alg».proof.Proof.KernelRun
import proofs.«135146_j54477365182993_2_alg».proof.Proof.HostFold
import proofs.«135146_j54477365182993_2_alg».proof.Proof.RefFold
import Idealize.ShloMosaic.Adequacy
import Idealize.ShloMosaic.Init

noncomputable section

namespace Cert.Proof

open Idealize.ShloMosaic Idealize.SL.Sem

/-- The tiled program as printed runs and leaves its arguments alone. -/
theorem frame_kernel : Cert.frame_Kernel := fun m ρ _ => Cert.Kernel.Gen.frame m ρ

/-- So does its reading at the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.RefFold.run m ρ)

/-- The ideal pass rewrote nothing. -/
theorem preserves : Cert.preserves_Kernel_KernelIdeal := trivial

/-- From memories that agree on the six arguments both programs end with the result at the reference's last stage
    function of those arguments. -/
theorem algebraic : Cert.algebraic_KernelIdeal_ReferenceIdeal := by
  intro m ρ m' ρ' _ hagree
  refine ⟨fun (c : Dev Cert.KernelIdeal.nD) => Cert.ReferenceIdeal.Read.val_main_v93 (F := Ideal)
      (Cert.KernelIdeal.HostFold.aX m c)
      (Cert.KernelIdeal.HostFold.aE m c)
      (Cert.KernelIdeal.HostFold.aW1 m c)
      (Cert.KernelIdeal.HostFold.aB1 m c)
      (Cert.KernelIdeal.HostFold.aW2 m c)
      (Cert.KernelIdeal.HostFold.aB2 m c), ?_, ?_⟩
  · exact (θ_run Cert.KernelIdeal.defs _ _).mono
      (fun _ h c => ⟨(h c).1.trans (Cert.KernelIdeal.HostFold.result m ρ c), (h c).2⟩)
      (Cert.KernelIdeal.KernelRun.run_result m ρ)
  · refine (θ_run Cert.ReferenceIdeal.defs _ _).mono (fun _ h c => ⟨(h c).1.trans ?_, (h c).2⟩)
      (Cert.ReferenceIdeal.RefFold.run m' ρ')
    obtain ⟨e0, e1, e2, e3, e4, e5⟩ := hagree c
    have h0 : Cert.ReferenceIdeal.RefFold.aX m' c = Cert.KernelIdeal.HostFold.aX m c := e0
    have h1 : Cert.ReferenceIdeal.RefFold.aE m' c = Cert.KernelIdeal.HostFold.aE m c := e1
    have h2 : Cert.ReferenceIdeal.RefFold.aW1 m' c = Cert.KernelIdeal.HostFold.aW1 m c := e2
    have h3 : Cert.ReferenceIdeal.RefFold.aB1 m' c = Cert.KernelIdeal.HostFold.aB1 m c := e3
    have h4 : Cert.ReferenceIdeal.RefFold.aW2 m' c = Cert.KernelIdeal.HostFold.aW2 m c := e4
    have h5 : Cert.ReferenceIdeal.RefFold.aB2 m' c = Cert.KernelIdeal.HostFold.aB2 m c := e5
    rw [h0, h1, h2, h3, h4, h5]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
